-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1024 : Shape := ⟨2, ![200000, 1024]⟩
abbrev S200000x256 : Shape := ⟨2, ![200000, 256]⟩
abbrev S1000x64 : Shape := ⟨2, ![1000, 64]⟩
abbrev S1000000 : Shape := ⟨1, ![1000000]⟩
abbrev S1024x128 : Shape := ⟨2, ![1024, 128]⟩
abbrev S128 : Shape := ⟨1, ![128]⟩
abbrev S256x128 : Shape := ⟨2, ![256, 128]⟩
abbrev S128x128 : Shape := ⟨2, ![128, 128]⟩
abbrev S64x128 : Shape := ⟨2, ![64, 128]⟩
abbrev S128x1 : Shape := ⟨2, ![128, 1]⟩
abbrev S1 : Shape := ⟨1, ![1]⟩
abbrev S_ : Shape := ⟨0, ![]⟩

class Facts : Prop where
  bcast_S_S200000x1024 : S_.BroadcastsInDim S200000x1024 (![] : Fin 0 → Fin S200000x1024.rank)
  reducesTo_S200000x1024_S_d0_1 : S200000x1024.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S1000x64 : S_.BroadcastsInDim S1000x64 (![] : Fin 0 → Fin S1000x64.rank)
  reducesTo_S1000x64_S_d0_1 : S1000x64.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg22 : FVec F S128x128 .f32) (main_arg23 : FVec F S128x1 .f32) (main_arg24 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x1 .f32 := Host.absf main_arg23
  let main_cst_36 : FVec F S_ .f32 := constant S_ .f32 0x7F800000#32
  let main_v95 : FVec F S128x1 .f32 := broadcastInDim S128x1 ![] bcast_S_S128x1 main_cst_36
  let main_v96 : IVec S128x1 1 := cmpf .olt main_v94 main_v95
  let main_c_37 : IVec S_ 1 := constantI S_ 1 1#1
  let main_v97 : IVec S_ 1 := (fun x v => Host.reduce IntOp.andi x v reducesTo_S128x1_S_d0_1 h_S_) main_v96 main_c_37
  let main_v98 : IVec S_ 1 := andi main_v93 main_v97
  let main_v99 : FVec F S1 .f32 := Host.absf main_arg24
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg19
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg20
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_v83 main_v84 main_cst_32

def fn_part3 {F : FTy → Type} [FloatOps F] (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg19 main_arg20 main_arg21 main_arg22 main_arg23 main_arg24 main_v63 main_v67

def fn_part2 {F : FTy → Type} [FloatOps F] (main_arg11 : FVec F S128x128 .f32) (main_arg12 : FVec F S128 .f32) (main_arg13 : FVec F S64x128 .f32) (main_arg14 : FVec F S64x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg13
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64x128 .f32 := Host.absf main_arg14
  let main_cst_18 : FVec F S_ .f32 := constant S_ .f32 0x7F800000#32
  let main_v50 : FVec F S64x128 .f32 := broadcastInDim S64x128 ![] bcast_S_S64x128 main_cst_18
  fn_part3 (F := F) main_arg15 main_arg16 main_arg17 main_arg18 main_arg19 main_arg20 main_arg21 main_arg22 main_arg23 main_arg24 main_v48 main_v49 main_v50

def fn_part1 {F : FTy → Type} [FloatOps F] (main_arg8 : FVec F S128 .f32) (main_arg9 : FVec F S256x128 .f32) (main_arg10 : FVec F S128 .f32) (main_arg11 : FVec F S128x128 .f32) (main_arg12 : FVec F S128 .f32) (main_arg13 : FVec F S64x128 .f32) (main_arg14 : FVec F S64x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg9
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_v33

def fn {F : FTy → Type} [FloatOps F] (main_arg0 : FVec F S200000x1024 .f32) (main_arg1 : FVec F S200000x256 .f32) (main_arg2 : FVec F S1000x64 .f32) (main_arg3 : IVec S1000000 32) (main_arg4 : IVec S1000000 32) (main_arg5 : IVec S1000000 32) (main_arg6 : IVec S1000000 32) (main_arg7 : FVec F S1024x128 .f32) (main_arg8 : FVec F S128 .f32) (main_arg9 : FVec F S256x128 .f32) (main_arg10 : FVec F S128 .f32) (main_arg11 : FVec F S128x128 .f32) (main_arg12 : FVec F S128 .f32) (main_arg13 : FVec F S64x128 .f32) (main_arg14 : FVec F S64x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) : IVec S_ 1 :=
  let main_v0 : FVec F S200000x1024 .f32 := Host.absf main_arg0
  let main_cst : FVec F S_ .f32 := constant S_ .f32 0x7F800000#32
  let main_v1 : FVec F S200000x1024 .f32 := broadcastInDim S200000x1024 ![] bcast_S_S200000x1024 main_cst
  let main_v2 : IVec S200000x1024 1 := cmpf .olt main_v0 main_v1
  let main_c : IVec S_ 1 := constantI S_ 1 1#1
  let main_v3 : IVec S_ 1 := (fun x v => Host.reduce IntOp.andi x v reducesTo_S200000x1024_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S1000x64 .f32 := Host.absf main_arg2
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S1024x128 .f32 := Host.absf main_arg7
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S200000x1024 : Shape := ⟨2, ![200000, 1024]⟩
abbrev S200000x256 : Shape := ⟨2, ![200000, 256]⟩
abbrev S1000x64 : Shape := ⟨2, ![1000, 64]⟩
abbrev S1000000 : Shape := ⟨1, ![1000000]⟩
abbrev S1024x128 : Shape := ⟨2, ![1024, 128]⟩
abbrev S128 : Shape := ⟨1, ![128]⟩
abbrev S256x128 : Shape := ⟨2, ![256, 128]⟩
abbrev S128x128 : Shape := ⟨2, ![128, 128]⟩
abbrev S64x128 : Shape := ⟨2, ![64, 128]⟩
abbrev S128x1 : Shape := ⟨2, ![128, 1]⟩
abbrev S1 : Shape := ⟨1, ![1]⟩
abbrev S1x128 : Shape := ⟨2, ![1, 128]⟩
abbrev S200000x128 : Shape := ⟨2, ![200000, 128]⟩
abbrev S_ : Shape := ⟨0, ![]⟩
abbrev S1000000x1 : Shape := ⟨2, ![1000000, 1]⟩
abbrev S1000000x128 : Shape := ⟨2, ![1000000, 128]⟩
abbrev S1000x128 : Shape := ⟨2, ![1000, 128]⟩
abbrev S1000x1 : Shape := ⟨2, ![1000, 1]⟩
abbrev S1000x192 : Shape := ⟨2, ![1000, 192]⟩
abbrev S1000000x192 : Shape := ⟨2, ![1000000, 192]⟩
abbrev S200000x192 : Shape := ⟨2, ![200000, 192]⟩
abbrev S200000x1 : Shape := ⟨2, ![200000, 1]⟩
abbrev S200000x64 : Shape := ⟨2, ![200000, 64]⟩
abbrev S1x1 : Shape := ⟨2, ![1, 1]⟩
abbrev S200000 : Shape := ⟨1, ![200000]⟩
abbrev S4000x1024 : Shape := ⟨2, ![4000, 1024]⟩
abbrev S4000x256 : Shape := ⟨2, ![4000, 256]⟩
abbrev S4000x128 : Shape := ⟨2, ![4000, 128]⟩
abbrev S4000x64 : Shape := ⟨2, ![4000, 64]⟩
abbrev S4000x1 : Shape := ⟨2, ![4000, 1]⟩

abbrev nBuf : Space → Nat
  | .hbm => 98
  | .vmem => 30
  | .smem => 0
  | _ => 0

abbrev bufTy : (tb : Table) → Fin (tcTables nBuf tb) → BufTy
  | .hbm, ⟨0, _⟩ => ⟨S200000x1024, .f32⟩
  | .hbm, ⟨1, _⟩ => ⟨S200000x256, .f32⟩
  | .hbm, ⟨2, _⟩ => ⟨S1000x64, .f32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1024x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S64x128, .f32⟩
  | .hbm, ⟨14, _⟩ => ⟨S64x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128x1, .f32⟩
  | .hbm, ⟨24, _⟩ => ⟨S1, .f32⟩
  | .hbm, ⟨25, _⟩ => ⟨S1x128, .f32⟩
  | .hbm, ⟨26, _⟩ => ⟨S1x128, .f32⟩
  | .hbm, ⟨27, _⟩ => ⟨S200000x128, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x128, .f32⟩
  | .hbm, ⟨37, _⟩ => ⟨S_, .f32⟩
  | .hbm, ⟨38, _⟩ => ⟨S1000x128, .f32⟩
  | .hbm, ⟨39, _⟩ => ⟨S1000000x1, .i32⟩
  | .hbm, ⟨40, _⟩ => ⟨S1000x128, .f32⟩
  | .hbm, ⟨41, _⟩ => ⟨S_, .f32⟩
  | .hbm, ⟨42, _⟩ => ⟨S1000000x1, .f32⟩
  | .hbm, ⟨43, _⟩ => ⟨S_, .f32⟩
  | .hbm, ⟨44, _⟩ => ⟨S1000x1, .f32⟩
  | .hbm, ⟨45, _⟩ => ⟨S1000000x1, .i32⟩
  | .hbm, ⟨46, _⟩ => ⟨S1000x1, .f32⟩
  | .hbm, ⟨47, _⟩ => ⟨S_, .f32⟩
  | .hbm, ⟨48, _⟩ => ⟨S1000x1, .f32⟩
  | .hbm, ⟨49, _⟩ => ⟨S1000x1, .f32⟩
  | .hbm, ⟨50, _⟩ => ⟨S1000x128, .f32⟩
  | .hbm, ⟨51, _⟩ => ⟨S1000x128, .f32⟩
  | .hbm, ⟨52, _⟩ => ⟨S1000x128, .f32⟩
  | .hbm, ⟨53, _⟩ => ⟨S1x128, .f32⟩
  | .hbm, ⟨54, _⟩ => ⟨S1000x128, .f32⟩
  | .hbm, ⟨55, _⟩ => ⟨S1000x128, .f32⟩
  | .hbm, ⟨56, _⟩ => ⟨S1000x128, .f32⟩
  | .hbm, ⟨57, _⟩ => ⟨S1000x128, .f32⟩
  | .hbm, ⟨58, _⟩ => ⟨S_, .f32⟩
  | .hbm, ⟨59, _⟩ => ⟨S1000x128, .f32⟩
  | .hbm, ⟨60, _⟩ => ⟨S1000x128, .i1⟩
  | .hbm, ⟨61, _⟩ => ⟨S_, .f32⟩
  | .hbm, ⟨62, _⟩ => ⟨S1000x128, .f32⟩
  | .hbm, ⟨63, _⟩ => ⟨S1000x128, .f32⟩
  | .hbm, ⟨64, _⟩ => ⟨S1000x128, .f32⟩
  | .hbm, ⟨65, _⟩ => ⟨S1000x192, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x192, .f32⟩
  | .hbm, ⟨75, _⟩ => ⟨S_, .f32⟩
  | .hbm, ⟨76, _⟩ => ⟨S200000x192, .f32⟩
  | .hbm, ⟨77, _⟩ => ⟨S1000000x1, .i32⟩
  | .hbm, ⟨78, _⟩ => ⟨S200000x192, .f32⟩
  | .hbm, ⟨79, _⟩ => ⟨S_, .f32⟩
  | .hbm, ⟨80, _⟩ => ⟨S1000000x1, .f32⟩
  | .hbm, ⟨81, _⟩ => ⟨S_, .f32⟩
  | .hbm, ⟨82, _⟩ => ⟨S200000x1, .f32⟩
  | .hbm, ⟨83, _⟩ => ⟨S1000000x1, .i32⟩
  | .hbm, ⟨84, _⟩ => ⟨S200000x1, .f32⟩
  | .hbm, ⟨85, _⟩ => ⟨S_, .f32⟩
  | .hbm, ⟨86, _⟩ => ⟨S200000x1, .f32⟩
  | .hbm, ⟨87, _⟩ => ⟨S200000x1, .f32⟩
  | .hbm, ⟨88, _⟩ => ⟨S200000x192, .f32⟩
  | .hbm, ⟨89, _⟩ => ⟨S200000x192, .f32⟩
  | .hbm, ⟨90, _⟩ => ⟨S200000x64, .f32⟩
  | .hbm, ⟨91, _⟩ => ⟨S200000x128, .f32⟩
  | .hbm, ⟨92, _⟩ => ⟨S1x128, .f32⟩
  | .hbm, ⟨93, _⟩ => ⟨S200000x128, .f32⟩
  | .hbm, ⟨94, _⟩ => ⟨S1x128, .f32⟩
  | .hbm, ⟨95, _⟩ => ⟨S1x1, .f32⟩
  | .hbm, ⟨96, _⟩ => ⟨S200000x1, .f32⟩
  | .hbm, ⟨97, _⟩ => ⟨S200000, .f32⟩
  | .local _ .vmem, ⟨0, _⟩ => ⟨S4000x1024, .f32⟩
  | .local _ .vmem, ⟨1, _⟩ => ⟨S4000x1024, .f32⟩
  | .local _ .vmem, ⟨2, _⟩ => ⟨S4000x256, .f32⟩
  | .local _ .vmem, ⟨3, _⟩ => ⟨S4000x256, .f32⟩
  | .local _ .vmem, ⟨4, _⟩ => ⟨S1024x128, .f32⟩
  | .local _ .vmem, ⟨5, _⟩ => ⟨S1x128, .f32⟩
  | .local _ .vmem, ⟨6, _⟩ => ⟨S256x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x64, .f32⟩
  | .local _ .vmem, ⟨11, _⟩ => ⟨S4000x64, .f32⟩
  | .local _ .vmem, ⟨12, _⟩ => ⟨S4000x128, .f32⟩
  | .local _ .vmem, ⟨13, _⟩ => ⟨S4000x128, .f32⟩
  | .local _ .vmem, ⟨14, _⟩ => ⟨S64x128, .f32⟩
  | .local _ .vmem, ⟨15, _⟩ => ⟨S1x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S128x1, .f32⟩
  | .local _ .vmem, ⟨27, _⟩ => ⟨S1x1, .f32⟩
  | .local _ .vmem, ⟨28, _⟩ => ⟨S4000x1, .f32⟩
  | .local _ .vmem, ⟨29, _⟩ => ⟨S4000x1, .f32⟩
  | _, _ => ⟨S200000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_c : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_cst : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_1 : Ref sig .tc := ⟨.hbm, 41, rfl⟩
abbrev main_call0_v13 : Ref sig .tc := ⟨.hbm, 42, rfl⟩
abbrev main_call0_cst_2 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_call0_cst_3 : Ref sig .tc := ⟨.hbm, 47, rfl⟩
abbrev main_call0_v17 : Ref sig .tc := ⟨.hbm, 48, rfl⟩
abbrev main_call0_v18 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_call0_v22 : Ref sig .tc := ⟨.hbm, 53, rfl⟩
abbrev main_call0_v23 : Ref sig .tc := ⟨.hbm, 54, rfl⟩
abbrev main_call0_v24 : Ref sig .tc := ⟨.hbm, 55, rfl⟩
abbrev main_call0_v25 : Ref sig .tc := ⟨.hbm, 56, rfl⟩
abbrev main_call0_v26 : Ref sig .tc := ⟨.hbm, 57, rfl⟩
abbrev main_call0_cst_4 : Ref sig .tc := ⟨.hbm, 58, rfl⟩
abbrev main_call0_v27 : Ref sig .tc := ⟨.hbm, 59, rfl⟩
abbrev main_call0_v28 : Ref sig .tc := ⟨.hbm, 60, rfl⟩
abbrev main_call0_cst_5 : Ref sig .tc := ⟨.hbm, 61, rfl⟩
abbrev main_call0_v29 : Ref sig .tc := ⟨.hbm, 62, rfl⟩
abbrev main_call0_v30 : Ref sig .tc := ⟨.hbm, 63, rfl⟩
abbrev main_call0_v31 : Ref sig .tc := ⟨.hbm, 64, rfl⟩
abbrev main_call0_v32 : Ref sig .tc := ⟨.hbm, 65, rfl⟩
abbrev main_call0_c_6 : Ref sig .tc := ⟨.hbm, 66, rfl⟩
abbrev main_call0_v33 : Ref sig .tc := ⟨.hbm, 67, rfl⟩
abbrev main_call0_v34 : Ref sig .tc := ⟨.hbm, 68, rfl⟩
abbrev main_call0_c_7 : Ref sig .tc := ⟨.hbm, 69, rfl⟩
abbrev main_call0_v35 : Ref sig .tc := ⟨.hbm, 70, rfl⟩
abbrev main_call0_v36 : Ref sig .tc := ⟨.hbm, 71, rfl⟩
abbrev main_call0_v37 : Ref sig .tc := ⟨.hbm, 72, rfl⟩
abbrev main_call0_v38 : Ref sig .tc := ⟨.hbm, 73, rfl⟩
abbrev main_call0_v39 : Ref sig .tc := ⟨.hbm, 74, rfl⟩
abbrev main_call0_cst_8 : Ref sig .tc := ⟨.hbm, 75, rfl⟩
abbrev main_call0_v40 : Ref sig .tc := ⟨.hbm, 76, rfl⟩
abbrev main_call0_v41 : Ref sig .tc := ⟨.hbm, 77, rfl⟩
abbrev main_call0_v42 : Ref sig .tc := ⟨.hbm, 78, rfl⟩
abbrev main_call0_cst_9 : Ref sig .tc := ⟨.hbm, 79, rfl⟩
abbrev main_call0_v43 : Ref sig .tc := ⟨.hbm, 80, rfl⟩
abbrev main_call0_cst_10 : Ref sig .tc := ⟨.hbm, 81, rfl⟩
abbrev main_call0_v44 : Ref sig .tc := ⟨.hbm, 82, rfl⟩
abbrev main_call0_v45 : Ref sig .tc := ⟨.hbm, 83, rfl⟩
abbrev main_call0_v46 : Ref sig .tc := ⟨.hbm, 84, rfl⟩
abbrev main_call0_cst_11 : Ref sig .tc := ⟨.hbm, 85, rfl⟩
abbrev main_call0_v47 : Ref sig .tc := ⟨.hbm, 86, rfl⟩
abbrev main_call0_v48 : Ref sig .tc := ⟨.hbm, 87, rfl⟩
abbrev main_call0_v49 : Ref sig .tc := ⟨.hbm, 88, rfl⟩
abbrev main_call0_v50 : Ref sig .tc := ⟨.hbm, 89, rfl⟩
abbrev main_call0_v51 : Ref sig .tc := ⟨.hbm, 90, rfl⟩
abbrev main_call0_v52 : Ref sig .tc := ⟨.hbm, 91, rfl⟩
abbrev main_call0_v53 : Ref sig .tc := ⟨.hbm, 92, rfl⟩
abbrev main_call0_v54 : Ref sig .tc := ⟨.hbm, 93, rfl⟩
abbrev main_call0_v55 : Ref sig .tc := ⟨.hbm, 94, rfl⟩
abbrev main_call0_v56 : Ref sig .tc := ⟨.hbm, 95, rfl⟩
abbrev main_call0_v57 : Ref sig .tc := ⟨.hbm, 96, rfl⟩
abbrev main_v0 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S128_S1x128 : S128.ShapeCasts S1x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000x128 : S_.BroadcastsInDim S1000x128 (![] : Fin 0 → Fin S1000x128.rank)
  bcast_S_S1000000x1 : S_.BroadcastsInDim S1000000x1 (![] : Fin 0 → Fin S1000000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  concatenates_S1000x64_S1000x128_S1000x192_d1 : Shape.Concatenates [S1000x64, S1000x128] S1000x192 1
  bcast_S_S200000x192 : S_.BroadcastsInDim S200000x192 (![] : Fin 0 → Fin S200000x192.rank)
  bcast_S_S200000x1 : S_.BroadcastsInDim S200000x1 (![] : Fin 0 → Fin S200000x1.rank)
  bcast_S200000x1_S200000x192_0_1 : S200000x1.BroadcastsInDim S200000x192 (![0, 1] : Fin 2 → Fin S200000x192.rank)
  slices_S200000x192_S200000x64_0_0 : S200000x192.Slices ![0, 0] S200000x64
  slices_S200000x192_S200000x128_0_64 : S200000x192.Slices ![0, 64] S200000x128
  shapeCasts_S1_S1x1 : S1.ShapeCasts S1x1
  shapeCasts_S200000x1_S200000 : S200000x1.ShapeCasts S200000
  inb_S4000x1024_S4000x1024_0_0 : ∀ a, (![0, 0] : Fin 2 → Nat) a + S4000x1024.size a ≤ S4000x1024.size a
  h_S4000x1024 : 0 < S4000x1024.numel
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x256_S4000x256_0_0 : ∀ a, (![0, 0] : Fin 2 → Nat) a + S4000x256.size a ≤ S4000x256.size a
  h_S4000x256 : 0 < S4000x256.numel
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S200000x128_S1000000x1_S1000000x128_1_0_n_n_0_1_1128_wf : GatherDims.WF S200000x128 S1000000x1 S1000000x128 [1] [0] [] [0] [] 1 ![1, 128]
  scatter_S1000x128_S1000000x1_S1000000x128_1_0_0_1_wf : ScatterDims.WF S1000x128 S1000000x1 S1000000x128 [1] [0] [0] 1
  scatter_S1000x1_S1000000x1_S1000000x1_1_0_0_1_wf : ScatterDims.WF S1000x1 S1000000x1 S1000000x1 [1] [0] [0] 1
  dot_S1000x128_S128x128_S1000x128_1_0_0_1_n_n_wf : DotDims.WF S1000x128 S128x128 S1000x128 [1] [0] [0] [1] [] []
  dot_S1000x64_S64x128_S1000x128_1_0_0_1_n_n_wf : DotDims.WF S1000x64 S64x128 S1000x128 [1] [0] [0] [1] [] []
  gather_S1000x192_S1000000x1_S1000000x192_1_0_n_n_0_1_1192_wf : GatherDims.WF S1000x192 S1000000x1 S1000000x192 [1] [0] [] [0] [] 1 ![1, 192]
  scatter_S200000x192_S1000000x1_S1000000x192_1_0_0_1_wf : ScatterDims.WF S200000x192 S1000000x1 S1000000x192 [1] [0] [0] 1
  scatter_S200000x1_S1000000x1_S1000000x1_1_0_0_1_wf : ScatterDims.WF S200000x1 S1000000x1 S1000000x1 [1] [0] [0] 1
  dot_S4000x1024_S1024x128_S4000x128_1_0_0_1_n_n_wf : DotDims.WF S4000x1024 S1024x128 S4000x128 [1] [0] [0] [1] [] []
  dot_S4000x256_S256x128_S4000x128_1_0_0_1_n_n_wf : DotDims.WF S4000x256 S256x128 S4000x128 [1] [0] [0] [1] [] []
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1024.size a ≤ S200000x1024.size a
  hwx0_0 : ∀ i : grid0.Coords, EltTy.bits .f32 = 32 ∨ (Rect.block (s := S200000x1024) S4000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S200000x256.size a
  hwx0_1 : ∀ i : grid0.Coords, EltTy.bits .f32 = 32 ∨ (Rect.block (s := S200000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S200000x128.size a
  hwx0_6 : ∀ i : grid0.Coords, EltTy.bits .f32 = 32 ∨ (Rect.block (s := S200000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .f32 = 32 ∨ (Rect.block (s := S200000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S200000x128.size a
  hwx1_5 : ∀ i : grid1.Coords, EltTy.bits .f32 = 32 ∨ (Rect.block (s := S200000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S200000x1.size a
  hwx2_7 : ∀ i : grid2.Coords, EltTy.bits .f32 = 32 ∨ (Rect.block (s := S200000x1) S4000x1.size (cc2_transform_7 i) (hinb2_7 i)).WholeWords (EltTy.packing .f32)

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S1000x128_S1000000x1_S1000000x128_1_0_0_1 : ScatterDims S1000x128 S1000000x1 S1000000x128 where
  updateWindowDims := [1]
  insertedWindowDims := [0]
  scatterDimsToOperandDims := [0]
  indexVectorDim := 1
  wf := scatter_S1000x128_S1000000x1_S1000000x128_1_0_0_1_wf
def scatter_S1000x1_S1000000x1_S1000000x1_1_0_0_1 : ScatterDims S1000x1 S1000000x1 S1000000x1 where
  updateWindowDims := [1]
  insertedWindowDims := [0]
  scatterDimsToOperandDims := [0]
  indexVectorDim := 1
  wf := scatter_S1000x1_S1000000x1_S1000000x1_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def gather_S1000x192_S1000000x1_S1000000x192_1_0_n_n_0_1_1192 : GatherDims S1000x192 S1000000x1 S1000000x192 where
  offsetDims := [1]
  collapsedSliceDims := [0]
  operandBatchingDims := []
  startIndicesBatchingDims := []
  startIndexMap := [0]
  indexVectorDim := 1
  sliceSizes := ![1, 192]
  wf := gather_S1000x192_S1000000x1_S1000000x192_1_0_n_n_0_1_1192_wf
def scatter_S200000x192_S1000000x1_S1000000x192_1_0_0_1 : ScatterDims S200000x192 S1000000x1 S1000000x192 where
  updateWindowDims := [1]
  insertedWindowDims := [0]
  scatterDimsToOperandDims := [0]
  indexVectorDim := 1
  wf := scatter_S200000x192_S1000000x1_S1000000x192_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def dot_S4000x1024_S1024x128_S4000x128_1_0_0_1_n_n : DotDims S4000x1024 S1024x128 S4000x128 where
  lhsContracting := [1]
  rhsContracting := [0]
  lhsNonContracting := [0]
  rhsNonContracting := [1]
  lhsBatch := []
  rhsBatch := []
  wf := dot_S4000x1024_S1024x128_S4000x128_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S4000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v51) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v54) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v54) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg23) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v56) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v57) S4000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S200000x1024 : Shape := ⟨2, ![200000, 1024]⟩
abbrev S200000x256 : Shape := ⟨2, ![200000, 256]⟩
abbrev S1000x64 : Shape := ⟨2, ![1000, 64]⟩
abbrev S1000000 : Shape := ⟨1, ![1000000]⟩
abbrev S1024x128 : Shape := ⟨2, ![1024, 128]⟩
abbrev S128 : Shape := ⟨1, ![128]⟩
abbrev S256x128 : Shape := ⟨2, ![256, 128]⟩
abbrev S128x128 : Shape := ⟨2, ![128, 128]⟩
abbrev S64x128 : Shape := ⟨2, ![64, 128]⟩
abbrev S128x1 : Shape := ⟨2, ![128, 1]⟩
abbrev S1 : Shape := ⟨1, ![1]⟩
abbrev S200000x128 : Shape := ⟨2, ![200000, 128]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S1000x128 : Shape := ⟨2, ![1000, 128]⟩
abbrev S1000x1 : Shape := ⟨2, ![1000, 1]⟩
abbrev S1000000x64 : Shape := ⟨2, ![1000000, 64]⟩
abbrev S200000x64 : Shape := ⟨2, ![200000, 64]⟩
abbrev S200000x1 : Shape := ⟨2, ![200000, 1]⟩
abbrev S1x1 : Shape := ⟨2, ![1, 1]⟩
abbrev S200000 : Shape := ⟨1, ![200000]⟩

abbrev nBuf : Space → Nat
  | .hbm => 190
  | .vmem => 0
  | .smem => 0
  | _ => 0

abbrev hbmTy0_0 (i : Nat) : BufTy := match i % 128 with
  | 0 => ⟨S200000x1024, .f32⟩
  | 1 => ⟨S200000x256, .f32⟩
  | 2 => ⟨S1000x64, .f32⟩
  | 3 => ⟨S1000000, .i32⟩
  | 4 => ⟨S1000000, .i32⟩
  | 5 => ⟨S1000000, .i32⟩
  | 6 => ⟨S1000000, .i32⟩
  | 7 => ⟨S1024x128, .f32⟩
  | 8 => ⟨S128, .f32⟩
  | 9 => ⟨S256x128, .f32⟩
  | 10 => ⟨S128, .f32⟩
  | 11 => ⟨S128x128, .f32⟩
  | 12 => ⟨S128, .f32⟩
  | 13 => ⟨S64x128, .f32⟩
  | 14 => ⟨S64x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x1, .f32⟩
  | 24 => ⟨S1, .f32⟩
  | 25 => ⟨S200000x128, .f32⟩
  | 26 => ⟨S1x128, .f32⟩
  | 27 => ⟨S200000x128, .f32⟩
  | 28 => ⟨S200000x128, .f32⟩
  | 29 => ⟨S200000x128, .f32⟩
  | 30 => ⟨S1x128, .f32⟩
  | 31 => ⟨S200000x128, .f32⟩
  | 32 => ⟨S200000x128, .f32⟩
  | 33 => ⟨S200000x128, .f32⟩
  | 34 => ⟨S_, .f32⟩
  | 35 => ⟨S200000x128, .f32⟩
  | 36 => ⟨S200000x128, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x128, .f32⟩
  | 46 => ⟨S_, .f32⟩
  | 47 => ⟨S1000x128, .f32⟩
  | 48 => ⟨S1000000x1, .i32⟩
  | 49 => ⟨S1000x128, .f32⟩
  | 50 => ⟨S_, .f32⟩
  | 51 => ⟨S1000000x1, .f32⟩
  | 52 => ⟨S_, .f32⟩
  | 53 => ⟨S1000x1, .f32⟩
  | 54 => ⟨S1000000x1, .i32⟩
  | 55 => ⟨S1000x1, .f32⟩
  | 56 => ⟨S_, .f32⟩
  | 57 => ⟨S1000x1, .f32⟩
  | 58 => ⟨S1000x1, .f32⟩
  | 59 => ⟨S1000x128, .f32⟩
  | 60 => ⟨S1000x128, .f32⟩
  | 61 => ⟨S1000x128, .f32⟩
  | 62 => ⟨S1x128, .f32⟩
  | 63 => ⟨S1000x128, .f32⟩
  | 64 => ⟨S1000x128, .f32⟩
  | 65 => ⟨S1000x128, .f32⟩
  | 66 => ⟨S1000x128, .f32⟩
  | 67 => ⟨S_, .f32⟩
  | 68 => ⟨S1000x128, .f32⟩
  | 69 => ⟨S1000x128, .i1⟩
  | 70 => ⟨S_, .f32⟩
  | 71 => ⟨S1000x128, .f32⟩
  | 72 => ⟨S1000x128, .f32⟩
  | 73 => ⟨S1000x128, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S_, .f32⟩
  | 84 => ⟨S200000x64, .f32⟩
  | 85 => ⟨S1000000x1, .i32⟩
  | 86 => ⟨S200000x64, .f32⟩
  | 87 => ⟨S_, .f32⟩
  | 88 => ⟨S1000000x1, .f32⟩
  | 89 => ⟨S_, .f32⟩
  | 90 => ⟨S200000x1, .f32⟩
  | 91 => ⟨S1000000x1, .i32⟩
  | 92 => ⟨S200000x1, .f32⟩
  | 93 => ⟨S_, .f32⟩
  | 94 => ⟨S200000x1, .f32⟩
  | 95 => ⟨S200000x1, .f32⟩
  | 96 => ⟨S200000x64, .f32⟩
  | 97 => ⟨S200000x64, .f32⟩
  | 98 => ⟨S200000x128, .f32⟩
  | 99 => ⟨S1x128, .f32⟩
  | 100 => ⟨S200000x128, .f32⟩
  | 101 => ⟨S200000x128, .f32⟩
  | 102 => ⟨S200000x128, .f32⟩
  | 103 => ⟨S200000x128, .f32⟩
  | 104 => ⟨S_, .f32⟩
  | 105 => ⟨S200000x128, .f32⟩
  | 106 => ⟨S200000x128, .i1⟩
  | 107 => ⟨S_, .f32⟩
  | 108 => ⟨S200000x128, .f32⟩
  | 109 => ⟨S200000x128, .f32⟩
  | 110 => ⟨S200000x128, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x128, .f32⟩
  | 120 => ⟨S_, .f32⟩
  | 121 => ⟨S1000x128, .f32⟩
  | 122 => ⟨S1000000x1, .i32⟩
  | 123 => ⟨S1000x128, .f32⟩
  | 124 => ⟨S_, .f32⟩
  | 125 => ⟨S1000000x1, .f32⟩
  | 126 => ⟨S_, .f32⟩
  | 127 => ⟨S1000x1, .f32⟩
  | _ => ⟨S200000x1024, .f32⟩

abbrev hbmTy0_1 (i : Nat) : BufTy := match i % 128 with
  | 0 => ⟨S1000000x1, .i32⟩
  | 1 => ⟨S1000x1, .f32⟩
  | 2 => ⟨S_, .f32⟩
  | 3 => ⟨S1000x1, .f32⟩
  | 4 => ⟨S1000x1, .f32⟩
  | 5 => ⟨S1000x128, .f32⟩
  | 6 => ⟨S1000x128, .f32⟩
  | 7 => ⟨S1000x128, .f32⟩
  | 8 => ⟨S1x128, .f32⟩
  | 9 => ⟨S1000x128, .f32⟩
  | 10 => ⟨S1000x128, .f32⟩
  | 11 => ⟨S1000x128, .f32⟩
  | 12 => ⟨S1000x128, .f32⟩
  | 13 => ⟨S_, .f32⟩
  | 14 => ⟨S1000x128, .f32⟩
  | 15 => ⟨S1000x128, .i1⟩
  | 16 => ⟨S_, .f32⟩
  | 17 => ⟨S1000x128, .f32⟩
  | 18 => ⟨S1000x128, .f32⟩
  | 19 => ⟨S1000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S200000x128, .f32⟩
  | 31 => ⟨S1000000x1, .i32⟩
  | 32 => ⟨S200000x128, .f32⟩
  | 33 => ⟨S_, .f32⟩
  | 34 => ⟨S1000000x1, .f32⟩
  | 35 => ⟨S_, .f32⟩
  | 36 => ⟨S200000x1, .f32⟩
  | 37 => ⟨S1000000x1, .i32⟩
  | 38 => ⟨S200000x1, .f32⟩
  | 39 => ⟨S_, .f32⟩
  | 40 => ⟨S200000x1, .f32⟩
  | 41 => ⟨S200000x1, .f32⟩
  | 42 => ⟨S200000x128, .f32⟩
  | 43 => ⟨S200000x128, .f32⟩
  | 44 => ⟨S200000x128, .f32⟩
  | 45 => ⟨S1x128, .f32⟩
  | 46 => ⟨S200000x128, .f32⟩
  | 47 => ⟨S200000x128, .f32⟩
  | 48 => ⟨S200000x128, .f32⟩
  | 49 => ⟨S200000x128, .f32⟩
  | 50 => ⟨S_, .f32⟩
  | 51 => ⟨S200000x128, .f32⟩
  | 52 => ⟨S200000x128, .i1⟩
  | 53 => ⟨S_, .f32⟩
  | 54 => ⟨S200000x128, .f32⟩
  | 55 => ⟨S200000x128, .f32⟩
  | 56 => ⟨S200000x128, .f32⟩
  | 57 => ⟨S200000x1, .f32⟩
  | 58 => ⟨S1x1, .f32⟩
  | 59 => ⟨S200000x1, .f32⟩
  | 60 => ⟨S200000x1, .f32⟩
  | 61 => ⟨S200000, .f32⟩
  | _ => ⟨S200000x1024, .f32⟩

abbrev hbmTy (i : Nat) : BufTy := match i / 128 with
  | 0 => hbmTy0_0 i
  | 1 => hbmTy0_1 i
  | _ => ⟨S200000x1024, .f32⟩

abbrev bufTy : (tb : Table) → Fin (tcTables nBuf tb) → BufTy
  | .hbm, ⟨i, _⟩ => hbmTy i
  | _, _ => ⟨S200000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_7 : Ref sig .tc := ⟨.hbm, 74, rfl⟩
abbrev main_v40 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_13 : Ref sig .tc := ⟨.hbm, 104, rfl⟩
abbrev main_v64 : Ref sig .tc := ⟨.hbm, 105, rfl⟩
abbrev main_v65 : Ref sig .tc := ⟨.hbm, 106, rfl⟩
abbrev main_cst_14 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_15 : Ref sig .tc := ⟨.hbm, 111, rfl⟩
abbrev main_v69 : Ref sig .tc := ⟨.hbm, 112, rfl⟩
abbrev main_v70 : Ref sig .tc := ⟨.hbm, 113, rfl⟩
abbrev main_c_16 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_17 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_18 : Ref sig .tc := ⟨.hbm, 124, rfl⟩
abbrev main_v79 : Ref sig .tc := ⟨.hbm, 125, rfl⟩
abbrev main_cst_19 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_20 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_21 : Ref sig .tc := ⟨.hbm, 141, rfl⟩
abbrev main_v93 : Ref sig .tc := ⟨.hbm, 142, rfl⟩
abbrev main_v94 : Ref sig .tc := ⟨.hbm, 143, rfl⟩
abbrev main_cst_22 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_23 : Ref sig .tc := ⟨.hbm, 148, rfl⟩
abbrev main_v98 : Ref sig .tc := ⟨.hbm, 149, rfl⟩
abbrev main_v99 : Ref sig .tc := ⟨.hbm, 150, rfl⟩
abbrev main_c_24 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_25 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_26 : Ref sig .tc := ⟨.hbm, 161, rfl⟩
abbrev main_v108 : Ref sig .tc := ⟨.hbm, 162, rfl⟩
abbrev main_cst_27 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_28 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_29 : Ref sig .tc := ⟨.hbm, 178, rfl⟩
abbrev main_v122 : Ref sig .tc := ⟨.hbm, 179, rfl⟩
abbrev main_v123 : Ref sig .tc := ⟨.hbm, 180, rfl⟩
abbrev main_cst_30 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000x128 : S_.BroadcastsInDim S1000x128 (![] : Fin 0 → Fin S1000x128.rank)
  bcast_S_S1000000x1 : S_.BroadcastsInDim S1000000x1 (![] : Fin 0 → Fin S1000000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S1x128_S1000x128_0_1 : S1x128.BroadcastsInDim S1000x128 (![0, 1] : Fin 2 → Fin S1000x128.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S200000x1_S200000x128_0_1 : S200000x1.BroadcastsInDim S200000x128 (![0, 1] : Fin 2 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S200000x1024_S1024x128_S200000x128_1_0_0_1_n_n_wf : DotDims.WF S200000x1024 S1024x128 S200000x128 [1] [0] [0] [1] [] []
  dot_S200000x256_S256x128_S200000x128_1_0_0_1_n_n_wf : DotDims.WF S200000x256 S256x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S1000x128_S1000000x1_S1000000x128_1_0_0_1_wf : ScatterDims.WF S1000x128 S1000000x1 S1000000x128 [1] [0] [0] 1
  scatter_S1000x1_S1000000x1_S1000000x1_1_0_0_1_wf : ScatterDims.WF S1000x1 S1000000x1 S1000000x1 [1] [0] [0] 1
  dot_S1000x128_S128x128_S1000x128_1_0_0_1_n_n_wf : DotDims.WF S1000x128 S128x128 S1000x128 [1] [0] [0] [1] [] []
  dot_S1000x64_S64x128_S1000x128_1_0_0_1_n_n_wf : DotDims.WF S1000x64 S64x128 S1000x128 [1] [0] [0] [1] [] []
  gather_S1000x64_S1000000x1_S1000000x64_1_0_n_n_0_1_164_wf : GatherDims.WF S1000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000x1_S1000000x1_S1000000x1_1_0_0_1_wf : ScatterDims.WF S200000x1 S1000000x1 S1000000x1 [1] [0] [0] 1
  dot_S200000x64_S64x128_S200000x128_1_0_0_1_n_n_wf : DotDims.WF S200000x64 S64x128 S200000x128 [1] [0] [0] [1] [] []
  dot_S200000x128_S128x128_S200000x128_1_0_0_1_n_n_wf : DotDims.WF S200000x128 S128x128 S200000x128 [1] [0] [0] [1] [] []
  gather_S1000x128_S1000000x1_S1000000x128_1_0_n_n_0_1_1128_wf : GatherDims.WF S1000x128 S1000000x1 S1000000x128 [1] [0] [] [0] [] 1 ![1, 128]
  scatter_S200000x128_S1000000x1_S1000000x128_1_0_0_1_wf : ScatterDims.WF S200000x128 S1000000x1 S1000000x128 [1] [0] [0] 1
  dot_S200000x128_S128x1_S200000x1_1_0_0_1_n_n_wf : DotDims.WF S200000x128 S128x1 S200000x1 [1] [0] [0] [1] [] []

variable [Facts₀]

def dot_S200000x1024_S1024x128_S200000x128_1_0_0_1_n_n : DotDims S200000x1024 S1024x128 S200000x128 where
  lhsContracting := [1]
  rhsContracting := [0]
  lhsNonContracting := [0]
  rhsNonContracting := [1]
  lhsBatch := []
  rhsBatch := []
  wf := dot_S200000x1024_S1024x128_S200000x128_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S1000x128_S1000000x1_S1000000x128_1_0_0_1 : ScatterDims S1000x128 S1000000x1 S1000000x128 where
  updateWindowDims := [1]
  insertedWindowDims := [0]
  scatterDimsToOperandDims := [0]
  indexVectorDim := 1
  wf := scatter_S1000x128_S1000000x1_S1000000x128_1_0_0_1_wf
def scatter_S1000x1_S1000000x1_S1000000x1_1_0_0_1 : ScatterDims S1000x1 S1000000x1 S1000000x1 where
  updateWindowDims := [1]
  insertedWindowDims := [0]
  scatterDimsToOperandDims := [0]
  indexVectorDim := 1
  wf := scatter_S1000x1_S1000000x1_S1000000x1_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def gather_S1000x64_S1000000x1_S1000000x64_1_0_n_n_0_1_164 : GatherDims S1000x64 S1000000x1 S1000000x64 where
  offsetDims := [1]
  collapsedSliceDims := [0]
  operandBatchingDims := []
  startIndicesBatchingDims := []
  startIndexMap := [0]
  indexVectorDim := 1
  sliceSizes := ![1, 64]
  wf := gather_S1000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S1000x128_S1000000x1_S1000000x128_1_0_n_n_0_1_1128 : GatherDims S1000x128 S1000000x1 S1000000x128 where
  offsetDims := [1]
  collapsedSliceDims := [0]
  operandBatchingDims := []
  startIndicesBatchingDims := []
  startIndexMap := [0]
  indexVectorDim := 1
  sliceSizes := ![1, 128]
  wf := gather_S1000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The idealized kernel program's run, with every buffer read at the end.

  The program is seven segments: a stretch of host operations, the encoder's grid of blocks, a long stretch of host
  operations (the neighbour aggregations), the first dense layer's grid, a short stretch, the last layer's grid, and a
  final reshape.  Each boundary's buffer contents is a function of the launch memory: a stretch applies its operations
  in order to the contents it finds, and a grid leaves each of its arrays at what its blocks' write-backs fold to and
  every other buffer as it found it.  Every weakly fair execution terminates, nothing faults, and every buffer that is
  not scoped to a kernel ends at the last boundary's contents.  (The frame claim keeps only the argument arrays from this;
  the value claim also needs the result array.)
-/
import proofs.«114619_j71399536329138_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the memory `m` terminates without a fault, and every unscoped
    buffer of every core ends at the contents of the last boundary, `W7`: the launch of the seven segments, the last
    thread state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result array of the program is an unscoped buffer. -/
theorem result_mem : Proc.devRef .tc main_v0 ∈ Pipeline.ucRefs τ sig := mem_uc main_v0 (by decide)

end Cert.KernelIdeal.Run

end
-- ==== Proof.KernelWalk.lean ====
/-
  Which buffers the program's segments leave alone.

  A stretch of host operations changes only the buffers its operations write, and a grid changes only its output
  array; so an argument array holds its launch contents at every boundary, and a value computed by one segment is still
  there when a later segment reads it.  Each statement below walks one buffer back through the boundaries it crosses.
-/
import proofs.«114619_j71399536329138_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := (W2_arr m ρ c 2).trans (((dat0 (V1 m ρ) c).arrAt_in 2 rfl _).trans (A_eq0 (V1 m ρ) c 2))
    _ = W0 m ρ c (Proc.devRef .tc main_arg7) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := (W2_arr m ρ c 4).trans (((dat0 (V1 m ρ) c).arrAt_in 4 rfl _).trans (A_eq0 (V1 m ρ) c 4))
    _ = W0 m ρ c (Proc.devRef .tc main_arg9) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W3_arg16 (c : Dev nD) : W3 m ρ c (Proc.devRef .tc main_arg16) = m ((c : Thread nD τ).loc main_arg16) :=
  calc W3 m ρ c (Proc.devRef .tc main_arg16)
    _ = W2 m ρ c (Proc.devRef .tc main_arg16) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W3_call0_v2 (c : Dev nD) : W3 m ρ c (Proc.devRef .tc main_call0_v2) = W2 m ρ c (Proc.devRef .tc main_call0_v2) :=
  calc W3 m ρ c (Proc.devRef .tc main_call0_v2)
    _ = W2 m ρ c (Proc.devRef .tc main_call0_v2) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_forall_not_mem _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem W5_arg22 (c : Dev nD) : W5 m ρ c (Proc.devRef .tc main_arg22) = m ((c : Thread nD τ).loc main_arg22) :=
  calc W5 m ρ c (Proc.devRef .tc main_arg22)
    _ = W4 m ρ c (Proc.devRef .tc main_arg22) := StableHlo.after_of_forall_not_mem _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

theorem W5_arg23 (c : Dev nD) : W5 m ρ c (Proc.devRef .tc main_arg23) = m ((c : Thread nD τ).loc main_arg23) :=
  calc W5 m ρ c (Proc.devRef .tc main_arg23)
    _ = W4 m ρ c (Proc.devRef .tc main_arg23) := StableHlo.after_of_forall_not_mem _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

theorem W4_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

theorem W4_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

theorem W5_call0_v52 (c : Dev nD) : W5 m ρ c (Proc.devRef .tc main_call0_v52) = W3 m ρ c (Proc.devRef .tc main_call0_v52) :=
  calc W5 m ρ c (Proc.devRef .tc main_call0_v52)
    _ = W4 m ρ c (Proc.devRef .tc main_call0_v52) := StableHlo.after_of_forall_not_mem _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_call0_v52) := W4_of_ne m ρ c main_call0_v52 (by decide)

theorem W5_call0_v54 (c : Dev nD) : W5 m ρ c (Proc.devRef .tc main_call0_v54) = W4 m ρ c (Proc.devRef .tc main_call0_v54) :=
  calc W5 m ρ c (Proc.devRef .tc main_call0_v54)
    _ = W4 m ρ c (Proc.devRef .tc main_call0_v54) := StableHlo.after_of_forall_not_mem _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Walk

end
-- ==== Proof.KernelHostBase.lean ====
/-
  The long host stretch of the idealized kernel program, cut in two.

  The stretch between the encoder's grid and the first dense grid is 65 host operations.  Its first 37 compute the
  first layer's aggregator output; the rest join that output to the aggregator features side by side, take the joint
  neighbour mean, cut it in two, and lay out a bias row.  Running the stretch is running the first part and then the
  second from what the first leaves; a buffer that no operation writes is the same before and after.  The operations are
  printed over typed references, which carry a value between the two spellings of its buffer's type: one type, so
  the carrying changes nothing.
-/
import proofs.«114619_j71399536329138_2_alg».proof.Proof.Gen.KernelIdeal.Frame
import Idealize.ShloMosaic.Lib.StableHlo.Run
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx

/-- A line of operations run in two parts: the second part starts from what the first leaves. -/
theorem after_append (A B : List (HloOp τ sig (Elt Ideal))) (V : Valuation τ sig (Elt Ideal)) :
    StableHlo.after (A ++ B) V = StableHlo.after B (StableHlo.after A V) := by
  induction A generalizing V with
  | nil => rfl
  | cons op A ih => exact ih _

/-- The long stretch up to the first layer's aggregator output (its first 37 operations). -/
abbrev opsA : List (HloOp τ sig (Elt Ideal)) := (hostOps1 : List (HloOp τ sig (Elt Ideal))).take 37
/-- The rest of the long stretch: the joint neighbour mean, its two cuts, the bias row. -/
abbrev opsB : List (HloOp τ sig (Elt Ideal)) := (hostOps1 : List (HloOp τ sig (Elt Ideal))).drop 37

theorem split (X : Valuation τ sig (Elt Ideal)) :
    StableHlo.after hostOps1 X = StableHlo.after opsB (StableHlo.after opsA X) := by
  rw [← after_append, List.take_append_drop]

theorem nw_arg2 : ∀ op ∈ (hostOps1 : List (HloOp τ sig (Elt Ideal))), (Proc.devRef .tc main_arg2 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem nw_arg5 : ∀ op ∈ (hostOps1 : List (HloOp τ sig (Elt Ideal))), (Proc.devRef .tc main_arg5 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem nw_arg6 : ∀ op ∈ (hostOps1 : List (HloOp τ sig (Elt Ideal))), (Proc.devRef .tc main_arg6 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem nw_arg15 : ∀ op ∈ (hostOps1 : List (HloOp τ sig (Elt Ideal))), (Proc.devRef .tc main_arg15 : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- A buffer no operation of the long stretch writes is untouched by its first part. -/
theorem A_keep (X : Valuation τ sig (Elt Ideal)) (b : Ref sig .tc)
    (h : ∀ op ∈ (hostOps1 : List (HloOp τ sig (Elt Ideal))), (Proc.devRef .tc b : DevRef τ sig) ∉ op.writes) :
    StableHlo.after opsA X (Proc.devRef .tc b) = X (Proc.devRef .tc b) :=
  StableHlo.after_of_forall_not_mem _ _ fun op hop => h op (List.mem_of_mem_take hop)

/-- Contents read through a typed reference are the contents (the two spellings of the buffer's type are one type). -/
theorem ofBuf_eq {T : BufTy} (x : TRef sig T) (u : x.ref.ty.Contents (Elt Ideal)) (w : T.Contents (Elt Ideal)) (h : HEq u w) :
    x.ofBuf u = w := eq_of_heq ((cast_heq _ _).trans h)

theorem ofBuf_toBuf {T : BufTy} (x : TRef sig T) (w : T.Contents (Elt Ideal)) : x.ofBuf (x.toBuf w) = w := by
  show cast _ (cast _ w) = w
  rw [cast_cast, cast_eq]

end Cert.KernelIdeal.Host

end
-- ==== Proof.KernelHostAgg.lean ====
/-
  The first part of the long host stretch of the idealized kernel program: from the encoded client features to the
  first layer's aggregator output.

  The stretch gathers the encoded features along the client-to-aggregator edges, adds them into their aggregator's
  row, divides by the (guarded) edge count, applies the dense layer with the aggregator's own features and the leaky
  rectifier: operation for operation what the reference does to its encoded features.  So where the encoded features
  agree, the aggregator output is the reference's.
-/
import proofs.«114619_j71399536329138_2_alg».proof.Proof.KernelHostBase
import proofs.«114619_j71399536329138_2_alg».proof.Proof.Gen.ReferenceIdeal.Read

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx

variable (X : Valuation τ sig (Elt Ideal))

set_option maxHeartbeats 4000000 in
/-- The first layer's aggregator output after the first part of the stretch is the reference's, given that the
    encoded features the stretch starts from are the reference's. -/
theorem A_agg1 (h2 : X (Proc.devRef .tc main_call0_v2) = Cert.ReferenceIdeal.Read.val_main_v10 (F := Ideal) (X (Proc.devRef .tc main_arg0)) (X (Proc.devRef .tc main_arg1)) (X (Proc.devRef .tc main_arg7)) (X (Proc.devRef .tc main_arg8)) (X (Proc.devRef .tc main_arg9)) (X (Proc.devRef .tc main_arg10))) :
    StableHlo.after opsA X (Proc.devRef .tc main_call0_v31) = Cert.ReferenceIdeal.Read.val_main_v39 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) := by
  simp only [opsA, hostOps1, List.take_succ_cons, List.take_zero]
  after_results_simp
  -- a value written through a typed reference and read back through it is the value
  simp only [ofBuf_toBuf]
  -- an argument's contents read through its typed reference are the contents
  rw [ofBuf_eq (TRef.of main_arg3 : TRef sig ⟨S1000000, .i32⟩) (X (Proc.devRef .tc main_arg3)) _ HEq.rfl]
  rw [ofBuf_eq (TRef.of main_arg4 : TRef sig ⟨S1000000, .i32⟩) (X (Proc.devRef .tc main_arg4)) _ HEq.rfl]
  rw [ofBuf_eq (TRef.of main_call0_v2 : TRef sig ⟨S200000x128, .f32⟩) (X (Proc.devRef .tc main_call0_v2)) _ HEq.rfl]
  rw [ofBuf_eq (TRef.of main_arg11 : TRef sig ⟨S128x128, .f32⟩) (X (Proc.devRef .tc main_arg11)) _ HEq.rfl]
  rw [ofBuf_eq (TRef.of main_arg12 : TRef sig ⟨S128, .f32⟩) (X (Proc.devRef .tc main_arg12)) _ HEq.rfl]
  rw [ofBuf_eq (TRef.of main_arg2 : TRef sig ⟨S1000x64, .f32⟩) (X (Proc.devRef .tc main_arg2)) _ HEq.rfl]
  rw [ofBuf_eq (TRef.of main_arg13 : TRef sig ⟨S64x128, .f32⟩) (X (Proc.devRef .tc main_arg13)) _ HEq.rfl]
  -- and so is the result, read at its own buffer
  refine (eq_of_heq (cast_heq _ _)).trans ?_
  -- what is left is the reference's operations one for one, over its encoded features
  rw [h2]
  rfl

end Cert.KernelIdeal.Host

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.LibMeanAgg.lean ====
/-
  THE MEAN AGGREGATION OF A GRAPH, READ AT AN ENTRY, AND ITS COLUMN RANGES.

  A table tbl of T rows and C columns, two columns src and dst of E integer words (held as [E, 1] arrays), an operand
  z of N rows and C columns and a column cnt of N divisors (an [N, 1] array) give the aggregate

      agg(tbl) = (z with, for every e, row srcRow(e) of tbl added to its row dst(e)), each row i divided by cnt(i, 0).

  Reading the table's rows, adding them up and dividing all act on one column at a time, so the entry (i, c) of the
  aggregate is

      ( z(i, c) + the sum over the e whose dst word is i of tbl(srcRow(e), c) ) / cnt(i, 0)            ('meanAgg_apply').

  Hence the aggregate of two tables a : [T, C₁] and b : [T, C₂] joined side by side into C = C₁ + C₂ columns, cut back
  into the columns [0, C₁) and [C₁, C), is the aggregate of a and the aggregate of b ('slice_left', 'slice_right'),
  as soon as the operands agree entry by entry (all three are the zero array where this is used).
  Every statement is over the extents T, N, E, C₁, C₂, C and the word width w as variables.
-/
import Idealize.ShloMosaic.PureOps.Ideal
import Idealize.ShloMosaic.Lib.Pipeline.Value
import Idealize.ShloMosaic.Lib.ValueIdx
import Idealize.ShloMosaic.Lib.IdealHost
import proofs.«114619_j71399536329138_2_alg».proof.Proof.LibAggRows
import proofs.«114619_j71399536329138_2_alg».proof.Proof.LibConcatCols

noncomputable section

open scoped BigOperators

namespace Cert.LibMeanAgg

open Idealize.ShloMosaic Idealize.ShloMosaic.ValueIdx Cert.LibAggRows Cert.LibConcatCols

variable {T N E C₁ C₂ C w : ℕ}

/-- A column [N, 1] laid over [N, C] along both axes reads, at (i, c), the column's entry of row i. -/
theorem col_spread_apply {α : Type} (S : (⟨2, ![N, 1]⟩ : Shape).Idx → α)
    (hb : (⟨2, ![N, 1]⟩ : Shape).BroadcastsInDim ⟨2, ![N, C]⟩ ![0, 1]) (i : Fin N) (c : Fin C) :
    broadcastInDim ⟨2, ![N, C]⟩ ![0, 1] hb S (ix2 i c) = S (ix2 i (0 : Fin 1)) := by
  refine broadcastInDim_apply ![0, 1] hb S (ix2 i c) (ix2 i (0 : Fin 1)) fun ax => ?_
  match ax with
  | ⟨0, _⟩ =>
    show i.val = if N = 1 then 0 else i.val
    split
    · have := i.isLt; omega
    · rfl
  | ⟨1, _⟩ => rfl

/-- THE MEAN AGGREGATION READ AT (i, c): the operand's entry plus the sum, over the e whose dst word (read signed, not
    clamped) is i, of the table's entries in column c of the rows srcRow(e) (the src word read signed and clamped into
    [0, T − 1]); the whole divided by the divisor of row i. Only column c of the table and of the operand enters. -/
theorem meanAgg_apply
    (gwf : GatherDims.WF ⟨2, ![T, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hb : (⟨2, ![N, 1]⟩ : Shape).BroadcastsInDim ⟨2, ![N, C]⟩ ![0, 1]) (hT : 0 < T)
    (z : FVec Ideal ⟨2, ![N, C]⟩ .f32) (tbl : FVec Ideal ⟨2, ![T, C]⟩ .f32) (src dst : IVec ⟨2, ![E, 1]⟩ w)
    (cnt : FVec Ideal ⟨2, ![N, 1]⟩ .f32) (i : Fin N) (c : Fin C) :
    Host.divf (F := Ideal) (Host.scatterAdd (F := Ideal) (rowScatterDims N E C swf) z dst
        (Host.gather (rowGatherDims T E C gwf) tbl src)) (broadcastInDim ⟨2, ![N, C]⟩ ![0, 1] hb cnt) (ix2 i c)
      = Ideal.div (z (ix2 i c) + ∑ e ∈ Finset.univ.filter (fun e : Fin E => dstRow? N dst e = some i),
          tbl (ix2 (srcRow T hT src e) c)) (cnt (ix2 i (0 : Fin 1))) := by
  rw [hostDivf_apply, col_spread_apply, rowScatterAdd_apply]
  refine congrArg (fun s => Ideal.div (z (ix2 i c) + s) (cnt (ix2 i (0 : Fin 1)))) (Finset.sum_congr rfl fun e _ => ?_)
  exact rowGather_apply hT gwf tbl src e c

/-- THE LEFT COLUMN RANGE: the aggregate of the joined table [a | b], cut to its columns [0, C₁), is the aggregate of
    a. At (i, c') both sides are the same quotient: the operands agree there, a column c' < C₁ of the joined table is
    a's column c', and the divisor is that of row i. -/
theorem slice_left
    (gwf : GatherDims.WF ⟨2, ![T, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hb : (⟨2, ![N, 1]⟩ : Shape).BroadcastsInDim ⟨2, ![N, C]⟩ ![0, 1])
    (gwf₁ : GatherDims.WF ⟨2, ![T, C₁]⟩ ⟨2, ![E, 1]⟩ ⟨2, ![E, C₁]⟩ [1] [0] [] [0] [] 1 ![1, C₁])
    (swf₁ : ScatterDims.WF ⟨2, ![N, C₁]⟩ ⟨2, ![E, 1]⟩ ⟨2, ![E, C₁]⟩ [1] [0] [0] 1)
    (hb₁ : (⟨2, ![N, 1]⟩ : Shape).BroadcastsInDim ⟨2, ![N, C₁]⟩ ![0, 1]) (hT : 0 < T)
    (z : FVec Ideal ⟨2, ![N, C]⟩ .f32) (z₁ : FVec Ideal ⟨2, ![N, C₁]⟩ .f32)
    (a : FVec Ideal ⟨2, ![T, C₁]⟩ .f32) (b : FVec Ideal ⟨2, ![T, C₂]⟩ .f32) (src dst : IVec ⟨2, ![E, 1]⟩ w)
    (cnt : FVec Ideal ⟨2, ![N, 1]⟩ .f32)
    (hcat : Shape.Concatenates [(⟨2, ![T, C₁]⟩ : Shape), ⟨2, ![T, C₂]⟩] ⟨2, ![T, C]⟩ 1)
    (hsl : (⟨2, ![N, C]⟩ : Shape).Slices ![0, 0] ⟨2, ![N, C₁]⟩)
    (hz : ∀ (i : Fin N) (c : Fin C) (c' : Fin C₁), z (ix2 i c) = z₁ (ix2 i c')) :
    extractStridedSlice ⟨2, ![N, C₁]⟩ ![0, 0]
        (Host.divf (F := Ideal) (Host.scatterAdd (F := Ideal) (rowScatterDims N E C swf) z dst
          (Host.gather (rowGatherDims T E C gwf)
            (concatenate ⟨2, ![T, C]⟩ 1 [⟨⟨2, ![T, C₁]⟩, a⟩, ⟨⟨2, ![T, C₂]⟩, b⟩] hcat) src))
          (broadcastInDim ⟨2, ![N, C]⟩ ![0, 1] hb cnt)) hsl
      = Host.divf (F := Ideal) (Host.scatterAdd (F := Ideal) (rowScatterDims N E C₁ swf₁) z₁ dst
          (Host.gather (rowGatherDims T E C₁ gwf₁) a src)) (broadcastInDim ⟨2, ![N, C₁]⟩ ![0, 1] hb₁ cnt) := by
  funext j
  obtain ⟨i, c', rfl⟩ : ∃ (i : Fin N) (c' : Fin C₁), j = ix2 i c' := ⟨j 0, j 1, eq_ix2 j⟩
  have hC : 0 + C₁ ≤ C := hsl.2 (1 : Fin 2)
  have hc : c'.val < C := by have := c'.isLt; omega
  refine (extractStridedSlice_apply ![0, 0] _ hsl (ix2 i c') (ix2 i (⟨c'.val, hc⟩ : Fin C)) fun ax => ?_).trans ?_
  · match ax with
    | ⟨0, _⟩ => exact (Nat.zero_add i.val).symm
    | ⟨1, _⟩ => exact (Nat.zero_add c'.val).symm
  · refine (meanAgg_apply gwf swf hb hT z _ src dst cnt i ⟨c'.val, hc⟩).trans ?_
    refine Eq.trans ?_ (meanAgg_apply gwf₁ swf₁ hb₁ hT z₁ a src dst cnt i c').symm
    rw [hz i ⟨c'.val, hc⟩ c']
    refine congrArg (fun s => Ideal.div (z₁ (ix2 i c') + s) (cnt (ix2 i (0 : Fin 1)))) (Finset.sum_congr rfl fun e _ => ?_)
    exact cols_left a b hcat (srcRow T hT src e) ⟨c'.val, hc⟩ c' rfl

/-- THE RIGHT COLUMN RANGE: the aggregate of the joined table [a | b], cut to its columns [C₁, C₁ + C₂), is the
    aggregate of b. At (i, c') the left side reads column c' + C₁ of the joined table, which is b's column c'. -/
theorem slice_right
    (gwf : GatherDims.WF ⟨2, ![T, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hb : (⟨2, ![N, 1]⟩ : Shape).BroadcastsInDim ⟨2, ![N, C]⟩ ![0, 1])
    (gwf₂ : GatherDims.WF ⟨2, ![T, C₂]⟩ ⟨2, ![E, 1]⟩ ⟨2, ![E, C₂]⟩ [1] [0] [] [0] [] 1 ![1, C₂])
    (swf₂ : ScatterDims.WF ⟨2, ![N, C₂]⟩ ⟨2, ![E, 1]⟩ ⟨2, ![E, C₂]⟩ [1] [0] [0] 1)
    (hb₂ : (⟨2, ![N, 1]⟩ : Shape).BroadcastsInDim ⟨2, ![N, C₂]⟩ ![0, 1]) (hT : 0 < T)
    (z : FVec Ideal ⟨2, ![N, C]⟩ .f32) (z₂ : FVec Ideal ⟨2, ![N, C₂]⟩ .f32)
    (a : FVec Ideal ⟨2, ![T, C₁]⟩ .f32) (b : FVec Ideal ⟨2, ![T, C₂]⟩ .f32) (src dst : IVec ⟨2, ![E, 1]⟩ w)
    (cnt : FVec Ideal ⟨2, ![N, 1]⟩ .f32)
    (hcat : Shape.Concatenates [(⟨2, ![T, C₁]⟩ : Shape), ⟨2, ![T, C₂]⟩] ⟨2, ![T, C]⟩ 1)
    (hsl : (⟨2, ![N, C]⟩ : Shape).Slices ![0, C₁] ⟨2, ![N, C₂]⟩)
    (hz : ∀ (i : Fin N) (c : Fin C) (c' : Fin C₂), z (ix2 i c) = z₂ (ix2 i c')) :
    extractStridedSlice ⟨2, ![N, C₂]⟩ ![0, C₁]
        (Host.divf (F := Ideal) (Host.scatterAdd (F := Ideal) (rowScatterDims N E C swf) z dst
          (Host.gather (rowGatherDims T E C gwf)
            (concatenate ⟨2, ![T, C]⟩ 1 [⟨⟨2, ![T, C₁]⟩, a⟩, ⟨⟨2, ![T, C₂]⟩, b⟩] hcat) src))
          (broadcastInDim ⟨2, ![N, C]⟩ ![0, 1] hb cnt)) hsl
      = Host.divf (F := Ideal) (Host.scatterAdd (F := Ideal) (rowScatterDims N E C₂ swf₂) z₂ dst
          (Host.gather (rowGatherDims T E C₂ gwf₂) b src)) (broadcastInDim ⟨2, ![N, C₂]⟩ ![0, 1] hb₂ cnt) := by
  funext j
  obtain ⟨i, c', rfl⟩ : ∃ (i : Fin N) (c' : Fin C₂), j = ix2 i c' := ⟨j 0, j 1, eq_ix2 j⟩
  have hC : C₁ + C₂ ≤ C := hsl.2 (1 : Fin 2)
  have hc : c'.val + C₁ < C := by have := c'.isLt; omega
  refine (extractStridedSlice_apply ![0, C₁] _ hsl (ix2 i c') (ix2 i (⟨c'.val + C₁, hc⟩ : Fin C)) fun ax => ?_).trans ?_
  · match ax with
    | ⟨0, _⟩ => exact (Nat.zero_add i.val).symm
    | ⟨1, _⟩ => exact Nat.add_comm c'.val C₁
  · refine (meanAgg_apply gwf swf hb hT z _ src dst cnt i ⟨c'.val + C₁, hc⟩).trans ?_
    refine Eq.trans ?_ (meanAgg_apply gwf₂ swf₂ hb₂ hT z₂ b src dst cnt i c').symm
    rw [hz i ⟨c'.val + C₁, hc⟩ c']
    refine congrArg (fun s => Ideal.div (z₂ (ix2 i c') + s) (cnt (ix2 i (0 : Fin 1)))) (Finset.sum_congr rfl fun e _ => ?_)
    exact cols_right a b hcat (srcRow T hT src e) ⟨c'.val + C₁, hc⟩ c' rfl

end Cert.LibMeanAgg

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«114619_j71399536329138_2_alg».proof.Proof.LibMatmulPlain
import proofs.«114619_j71399536329138_2_alg».proof.Proof.LibDotsNT
import proofs.«114619_j71399536329138_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.KernelHost.lean ====
/-
  The host stretches of the idealized kernel program, read against the reference's operations.

  Between its three grids the kernel program runs the same host operations as the reference, with one difference: the
  two neighbour means that share an edge list (over the aggregator features, 64 columns, and over the first layer's
  aggregator output, 128 columns) are taken at once, over the two tables joined side by side (192 columns), and the
  result is cut back into its two column ranges.  Gathering rows, adding rows into their destination and dividing a row
  by its count all act column by column, so each cut is the mean over the table it came from.  Bias vectors reach the
  grids as rows through a reshape where the reference lays them out by a broadcast: the same array.

  Each statement reads one buffer after a stretch, from any contents `X` the stretch starts at, as the reference's
  value of the same name (its operations composed, as functions of the argument arrays).
-/
import proofs.«114619_j71399536329138_2_alg».proof.Proof.KernelHostBase
import proofs.«114619_j71399536329138_2_alg».proof.Proof.KernelHostAgg
import proofs.«114619_j71399536329138_2_alg».proof.Proof.Gen.ReferenceIdeal.Read
import proofs.«114619_j71399536329138_2_alg».proof.Proof.LibMeanAgg
import proofs.«114619_j71399536329138_2_alg».proof.Proof.LibDenseLayer

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx

variable (X : Valuation τ sig (Elt Ideal))

/-! ## The bias rows -/

/-- The first encoder bias as a row: the reshape is the reference's broadcast. -/
theorem s0_v0 : StableHlo.after hostOps0 X (Proc.devRef .tc main_call0_v0) = Cert.ReferenceIdeal.Read.val_main_v1 (F := Ideal) (X (Proc.devRef .tc main_arg8)) := by
  after_results
  exact Cert.Dense.row_cast_eq_bcast _ _ _

/-- The second encoder bias as a row. -/
theorem s0_v1 : StableHlo.after hostOps0 X (Proc.devRef .tc main_call0_v1) = Cert.ReferenceIdeal.Read.val_main_v5 (F := Ideal) (X (Proc.devRef .tc main_arg10)) := by
  after_results
  exact Cert.Dense.row_cast_eq_bcast _ _ _

/-- The last layer's bias as a row. -/
theorem s2_v55 : StableHlo.after hostOps2 X (Proc.devRef .tc main_call0_v55) = Cert.ReferenceIdeal.Read.val_main_v117 (F := Ideal) (X (Proc.devRef .tc main_arg21)) := by
  after_results
  exact Cert.Dense.row_cast_eq_bcast _ _ _

/-- The head's bias as a one-entry row. -/
theorem s2_v56 : StableHlo.after hostOps2 X (Proc.devRef .tc main_call0_v56) = Cert.ReferenceIdeal.Read.val_main_v128 (F := Ideal) (X (Proc.devRef .tc main_arg24)) := by
  after_results
  exact Cert.Dense.row_cast_eq_bcast _ _ _

/-- The result: the output column reshaped to a vector. -/
theorem s3_v0 : StableHlo.after hostOps3 X (Proc.devRef .tc main_v0)
    = shapeCast Cert.ReferenceIdeal.S200000 (X (Proc.devRef .tc main_call0_v57)) Cert.ReferenceIdeal.Facts₀.shapeCasts_S200000x1_S200000 := by
  after_results
  rfl

/-! ## The long stretch between the encoder and the first dense layer -/

/-- The first layer's bias as a row. -/
theorem s1_v53 : StableHlo.after hostOps1 X (Proc.devRef .tc main_call0_v53) = Cert.ReferenceIdeal.Read.val_main_v59 (F := Ideal) (X (Proc.devRef .tc main_arg15)) := by
  rw [split]
  have k15 := A_keep X main_arg15 nw_arg15
  generalize StableHlo.after opsA X = Y at k15 ⊢
  simp only [opsB, hostOps1, List.drop_succ_cons, List.drop_zero]
  after_results_simp
  rw [k15]
  exact Cert.Dense.row_cast_eq_bcast _ _ _

set_option maxHeartbeats 4000000 in
set_option maxRecDepth 65536 in
/-- The first cut of the joint neighbour mean (columns 0..63) is the mean over the aggregator features. -/
theorem s1_v51 : StableHlo.after hostOps1 X (Proc.devRef .tc main_call0_v51)
    = Cert.ReferenceIdeal.Read.val_main_v57 (F := Ideal) (X (Proc.devRef .tc main_arg2)) (X (Proc.devRef .tc main_arg5)) (X (Proc.devRef .tc main_arg6)) := by
  rw [split]
  have k2 := A_keep X main_arg2 nw_arg2
  have k5 := A_keep X main_arg5 nw_arg5
  have k6 := A_keep X main_arg6 nw_arg6
  generalize StableHlo.after opsA X = Y at k2 k5 k6 ⊢
  simp only [opsB, hostOps1, List.drop_succ_cons, List.drop_zero]
  after_results_simp
  simp only [ofBuf_toBuf]
  rw [ofBuf_eq (TRef.of main_arg2 : TRef sig ⟨S1000x64, .f32⟩) (Y (Proc.devRef .tc main_arg2)) _ (heq_of_eq k2), ofBuf_eq (TRef.of main_arg5 : TRef sig ⟨S1000000, .i32⟩) (Y (Proc.devRef .tc main_arg5)) _ (heq_of_eq k5),
    ofBuf_eq (TRef.of main_arg6 : TRef sig ⟨S1000000, .i32⟩) (Y (Proc.devRef .tc main_arg6)) _ (heq_of_eq k6)]
  refine (eq_of_heq (cast_heq _ _)).trans ?_
  refine (Cert.LibMeanAgg.slice_left (T := 1000) (N := 200000) (E := 1000000) (C₁ := 64) (C₂ := 128) (C := 192) (w := 32)
    _ _ _ Cert.ReferenceIdeal.Facts₀.gather_S1000x64_S1000000x1_S1000000x64_1_0_n_n_0_1_164_wf
    Cert.ReferenceIdeal.Facts₀.scatter_S200000x64_S1000000x1_S1000000x64_1_0_0_1_wf Cert.ReferenceIdeal.Facts₀.bcast_S200000x1_S200000x64_0_1
    (by decide) _ (Cert.ReferenceIdeal.Read.val_main_v47 (F := Ideal)) _ _ _ _ _ _ _ (fun _ _ _ => rfl)).trans ?_
  rfl

set_option maxHeartbeats 4000000 in
set_option maxRecDepth 65536 in
/-- The second cut (columns 64..191) is the mean over the first layer's aggregator output, which the first part of the
    stretch computes from the encoded features exactly as the reference does. -/
theorem s1_v52 (h2 : X (Proc.devRef .tc main_call0_v2) = Cert.ReferenceIdeal.Read.val_main_v10 (F := Ideal) (X (Proc.devRef .tc main_arg0)) (X (Proc.devRef .tc main_arg1)) (X (Proc.devRef .tc main_arg7)) (X (Proc.devRef .tc main_arg8)) (X (Proc.devRef .tc main_arg9)) (X (Proc.devRef .tc main_arg10))) :
    StableHlo.after hostOps1 X (Proc.devRef .tc main_call0_v52) = Cert.ReferenceIdeal.Read.val_main_v115 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) := by
  rw [split]
  have k2 := A_keep X main_arg2 nw_arg2
  have k5 := A_keep X main_arg5 nw_arg5
  have k6 := A_keep X main_arg6 nw_arg6
  have k31 := A_agg1 X h2
  generalize StableHlo.after opsA X = Y at k2 k5 k6 k31 ⊢
  simp only [opsB, hostOps1, List.drop_succ_cons, List.drop_zero]
  after_results_simp
  simp only [ofBuf_toBuf]
  rw [ofBuf_eq (TRef.of main_arg2 : TRef sig ⟨S1000x64, .f32⟩) (Y (Proc.devRef .tc main_arg2)) _ (heq_of_eq k2), ofBuf_eq (TRef.of main_arg5 : TRef sig ⟨S1000000, .i32⟩) (Y (Proc.devRef .tc main_arg5)) _ (heq_of_eq k5),
    ofBuf_eq (TRef.of main_arg6 : TRef sig ⟨S1000000, .i32⟩) (Y (Proc.devRef .tc main_arg6)) _ (heq_of_eq k6), ofBuf_eq (TRef.of main_call0_v31 : TRef sig ⟨S1000x128, .f32⟩) (Y (Proc.devRef .tc main_call0_v31)) _ (heq_of_eq k31)]
  refine (eq_of_heq (cast_heq _ _)).trans ?_
  refine (Cert.LibMeanAgg.slice_right (T := 1000) (N := 200000) (E := 1000000) (C₁ := 64) (C₂ := 128) (C := 192) (w := 32)
    _ _ _ Cert.ReferenceIdeal.Facts₀.gather_S1000x128_S1000000x1_S1000000x128_1_0_n_n_0_1_1128_wf
    Cert.ReferenceIdeal.Facts₀.scatter_S200000x128_S1000000x1_S1000000x128_1_0_0_1_wf Cert.ReferenceIdeal.Facts₀.bcast_S200000x1_S200000x128_0_1
    (by decide) _ (Cert.ReferenceIdeal.Read.val_main_v105 (F := Ideal)) _ _ _ _ _ _ _ (fun _ _ _ => rfl)).trans ?_
  rfl

end Cert.KernelIdeal.Host

end
-- ==== Proof.LibSage.lean ====
/-
  The dense steps of a two-layer bipartite graph network, read at an entry, on the extended reals.

  For a block of aggregated neighbour features A : [a, k], the block's own features X : [a, k'], weight matrices
  Wl : [k, n] and Wr : [k', n] and a bias row B : [1, n], one layer computes the pre-activation
      pre(r, q) = (sum over c of A(r, c) * Wl(c, q)) + B(0, q) + (sum over c of X(r, c) * Wr(c, q))
  and then the leaky rectifier: x where x is at least zero and a tenth of x below (`leaky`, spelled as both programs
  spell it: a comparison with zero selecting between x and t * x).  The last layer is followed by a linear head
  (`head`): the rectified block times Wo : [n, o] plus a bias row.  The encoder (`enc`) is the mean of two biased
  products, spelled as a product with one half.

  Every one of these depends on the row r of the feature blocks only, so it commutes with cutting a block of
  consecutive rows out of a taller array (`rows`): the value on the block is the value on the array at the row moved
  by the block's offset.
-/
import Idealize.ShloMosaic.Lib.Pipeline.Value
import Idealize.ShloMosaic.Lib.ValueIdx
import Idealize.ShloMosaic.PureOps.Ideal.Laws
import proofs.«114619_j71399536329138_2_alg».proof.Proof.LibDenseLayer

noncomputable section

open scoped BigOperators

namespace Cert.Sage

open Idealize.ShloMosaic Idealize.ShloMosaic.ValueIdx

variable {a k k' n o N : ℕ}

/-- The leaky rectifier with threshold `z` and slope `t`: `x` when `x` is at least `z`, and `t * x` otherwise. -/
def leaky (z t x : EReal) : EReal :=
  Scalar.select (FloatOps.cmpf (F := Ideal) (φ := .f32) .oge x z) x (t * x)

/-- The pre-activation of one layer at an entry. -/
def pre (A : (⟨2, ![a, k]⟩ : Shape).Idx → EReal) (Wl : (⟨2, ![k, n]⟩ : Shape).Idx → EReal)
    (B : (⟨2, ![1, n]⟩ : Shape).Idx → EReal) (X : (⟨2, ![a, k']⟩ : Shape).Idx → EReal)
    (Wr : (⟨2, ![k', n]⟩ : Shape).Idx → EReal) : (⟨2, ![a, n]⟩ : Shape).Idx → EReal :=
  fun i => Cert.Dense.biased A Wl B i + Cert.Dense.prod X Wr i

/-- One layer: the rectified pre-activation. -/
def act (z t : EReal) (A : (⟨2, ![a, k]⟩ : Shape).Idx → EReal) (Wl : (⟨2, ![k, n]⟩ : Shape).Idx → EReal)
    (B : (⟨2, ![1, n]⟩ : Shape).Idx → EReal) (X : (⟨2, ![a, k']⟩ : Shape).Idx → EReal)
    (Wr : (⟨2, ![k', n]⟩ : Shape).Idx → EReal) : (⟨2, ![a, n]⟩ : Shape).Idx → EReal :=
  fun i => leaky z t (pre A Wl B X Wr i)

/-- The last layer followed by the linear head. -/
def head (z t : EReal) (A : (⟨2, ![a, k]⟩ : Shape).Idx → EReal) (Wl : (⟨2, ![k, n]⟩ : Shape).Idx → EReal)
    (B : (⟨2, ![1, n]⟩ : Shape).Idx → EReal) (X : (⟨2, ![a, k']⟩ : Shape).Idx → EReal)
    (Wr : (⟨2, ![k', n]⟩ : Shape).Idx → EReal) (Wo : (⟨2, ![n, o]⟩ : Shape).Idx → EReal)
    (Bo : (⟨2, ![1, o]⟩ : Shape).Idx → EReal) : (⟨2, ![a, o]⟩ : Shape).Idx → EReal :=
  Cert.Dense.biased (act z t A Wl B X Wr) Wo Bo

/-- The encoder: the sum of two biased products times `h` (one half). -/
def enc (h : EReal) (A : (⟨2, ![a, k]⟩ : Shape).Idx → EReal) (Wa : (⟨2, ![k, n]⟩ : Shape).Idx → EReal)
    (Ba : (⟨2, ![1, n]⟩ : Shape).Idx → EReal) (X : (⟨2, ![a, k']⟩ : Shape).Idx → EReal)
    (Wb : (⟨2, ![k', n]⟩ : Shape).Idx → EReal) (Bb : (⟨2, ![1, n]⟩ : Shape).Idx → EReal) :
    (⟨2, ![a, n]⟩ : Shape).Idx → EReal :=
  fun i => (Cert.Dense.biased A Wa Ba i + Cert.Dense.biased X Wb Bb i) * h

/-- The block of `a` consecutive rows of a taller array that starts at row `off`. -/
def rows (off : ℕ) (hoff : off + a ≤ N) (A : (⟨2, ![N, k]⟩ : Shape).Idx → EReal) :
    (⟨2, ![a, k]⟩ : Shape).Idx → EReal :=
  fun y => A (ix2 (⟨off + (y 0).val, by have h : (y 0).val < a := (y 0).isLt; omega⟩ : Fin N) (y 1))

theorem rows_ix2 (off : ℕ) (hoff : off + a ≤ N) (A : (⟨2, ![N, k]⟩ : Shape).Idx → EReal) (p : Fin a) (c : Fin k) :
    rows off hoff A (ix2 p c) = A (ix2 (⟨off + p.val, by omega⟩ : Fin N) c) := rfl

/-- A product of a row block is the product of the array at the moved row. -/
theorem prod_rows (off : ℕ) (hoff : off + a ≤ N) (A : (⟨2, ![N, k]⟩ : Shape).Idx → EReal)
    (W : (⟨2, ![k, n]⟩ : Shape).Idx → EReal) (p : Fin a) (q : Fin n) :
    Cert.Dense.prod (rows off hoff A) W (ix2 p q) = Cert.Dense.prod A W (ix2 (⟨off + p.val, by omega⟩ : Fin N) q) := rfl

theorem biased_rows (off : ℕ) (hoff : off + a ≤ N) (A : (⟨2, ![N, k]⟩ : Shape).Idx → EReal)
    (W : (⟨2, ![k, n]⟩ : Shape).Idx → EReal) (B : (⟨2, ![1, n]⟩ : Shape).Idx → EReal) (p : Fin a) (q : Fin n) :
    Cert.Dense.biased (rows off hoff A) W B (ix2 p q)
      = Cert.Dense.biased A W B (ix2 (⟨off + p.val, by omega⟩ : Fin N) q) := rfl

theorem enc_rows (h : EReal) (off : ℕ) (hoff : off + a ≤ N) (A : (⟨2, ![N, k]⟩ : Shape).Idx → EReal)
    (Wa : (⟨2, ![k, n]⟩ : Shape).Idx → EReal) (Ba : (⟨2, ![1, n]⟩ : Shape).Idx → EReal)
    (X : (⟨2, ![N, k']⟩ : Shape).Idx → EReal) (Wb : (⟨2, ![k', n]⟩ : Shape).Idx → EReal)
    (Bb : (⟨2, ![1, n]⟩ : Shape).Idx → EReal) (p : Fin a) (q : Fin n) :
    enc h (rows off hoff A) Wa Ba (rows off hoff X) Wb Bb (ix2 p q)
      = enc h A Wa Ba X Wb Bb (ix2 (⟨off + p.val, by omega⟩ : Fin N) q) := rfl

theorem act_rows (z t : EReal) (off : ℕ) (hoff : off + a ≤ N) (A : (⟨2, ![N, k]⟩ : Shape).Idx → EReal)
    (Wl : (⟨2, ![k, n]⟩ : Shape).Idx → EReal) (B : (⟨2, ![1, n]⟩ : Shape).Idx → EReal)
    (X : (⟨2, ![N, k']⟩ : Shape).Idx → EReal) (Wr : (⟨2, ![k', n]⟩ : Shape).Idx → EReal) (p : Fin a) (q : Fin n) :
    act z t (rows off hoff A) Wl B (rows off hoff X) Wr (ix2 p q)
      = act z t A Wl B X Wr (ix2 (⟨off + p.val, by omega⟩ : Fin N) q) := rfl

theorem head_rows (z t : EReal) (off : ℕ) (hoff : off + a ≤ N) (A : (⟨2, ![N, k]⟩ : Shape).Idx → EReal)
    (Wl : (⟨2, ![k, n]⟩ : Shape).Idx → EReal) (B : (⟨2, ![1, n]⟩ : Shape).Idx → EReal)
    (X : (⟨2, ![N, k']⟩ : Shape).Idx → EReal) (Wr : (⟨2, ![k', n]⟩ : Shape).Idx → EReal)
    (Wo : (⟨2, ![n, o]⟩ : Shape).Idx → EReal) (Bo : (⟨2, ![1, o]⟩ : Shape).Idx → EReal) (p : Fin a) (q : Fin o) :
    head z t (rows off hoff A) Wl B (rows off hoff X) Wr Wo Bo (ix2 p q)
      = head z t A Wl B X Wr Wo Bo (ix2 (⟨off + p.val, by omega⟩ : Fin N) q) := rfl

end Cert.Sage

end
-- ==== Proof.Tiles.lean ====
/-
  The three tiles of the network as functions of the blocks they load, on the extended reals.

  Each tile computes, entry by entry, one of the dense steps of the two-layer network: the encoder (the mean of two
  biased products, spelled as a product with one half), one layer (the leaky rectifier of the pre-activation), and the
  last layer followed by the linear head.  A matrix product into the zero accumulator is the sum over the contracted
  axis of the products of entries; a bias row cast to its own shape and spread over the rows adds, in column q, the
  row's entry q; a cast of a block to its own shape changes nothing; and a scalar spread over a block reads that scalar
  everywhere.  Read at an entry (p, q), every tile is therefore the corresponding specification at (p, q).

  The steps are first stated for arbitrary extents (`biased_tile`, `pre_tile`, `act_tile`) and then read off at the
  extents of the three tiles (`pay0`, `pay1`, `pay2`).
-/
import proofs.«114619_j71399536329138_2_alg».proof.Proof.Gen.KernelIdeal.Skeleton
import proofs.«114619_j71399536329138_2_alg».proof.Proof.LibSage
import proofs.«114619_j71399536329138_2_alg».proof.Proof.LibMatmulPlain
import proofs.«114619_j71399536329138_2_alg».proof.Proof.LibKeepdims

noncomputable section

open scoped BigOperators

namespace Cert.KernelIdeal.Tiles

open Cert.KernelIdeal Cert.KernelIdeal.Gen Idealize.ShloMosaic Idealize.ShloMosaic.ValueIdx

section General

variable {a k k' n : ℕ}
  (d1 : DotDims ⟨2, ![a, k]⟩ ⟨2, ![k, n]⟩ ⟨2, ![a, n]⟩)
  (h1lc : d1.lhsContracting = [1]) (h1rc : d1.rhsContracting = [0]) (h1ln : d1.lhsNonContracting = [0])
  (h1rn : d1.rhsNonContracting = [1]) (h1lb : d1.lhsBatch = []) (h1rb : d1.rhsBatch = [])
  (d2 : DotDims ⟨2, ![a, k']⟩ ⟨2, ![k', n]⟩ ⟨2, ![a, n]⟩)
  (h2lc : d2.lhsContracting = [1]) (h2rc : d2.rhsContracting = [0]) (h2ln : d2.lhsNonContracting = [0])
  (h2rn : d2.rhsNonContracting = [1]) (h2lb : d2.lhsBatch = []) (h2rb : d2.rhsBatch = [])

include h1lc h1rc h1ln h1rn h1lb h1rb in
/-- A product into the zero accumulator plus a bias row spread over the rows is the biased product. -/
theorem biased_tile (A : FVec Ideal ⟨2, ![a, k]⟩ .f32) (W : FVec Ideal ⟨2, ![k, n]⟩ .f32) (B : FVec Ideal ⟨2, ![1, n]⟩ .f32)
    (hcB : (⟨2, ![1, n]⟩ : Shape).ShapeCasts ⟨2, ![1, n]⟩) (hbB : (⟨2, ![1, n]⟩ : Shape).Broadcasts ⟨2, ![a, n]⟩)
    (r : Fin a) (q : Fin n) :
    addf (matmul d1 none A W (constant (F := Ideal) ⟨2, ![a, n]⟩ .f32 0x00000000#32))
        (broadcastTo ⟨2, ![a, n]⟩ (shapeCast ⟨2, ![1, n]⟩ B hcB) hbB) (ix2 r q)
      = Cert.Dense.biased A W B (ix2 r q) :=
  (Cert.Dense.tile_biased _ B hcB hbB r q).trans
    (congrArg (· + B (ix2 (0 : Fin 1) q))
      (Cert.LibMatmulPlain.matmul_zero_apply d1 h1lc h1rc h1ln h1rn h1lb h1rb none A W r q))

include h1lc h1rc h1ln h1rn h1lb h1rb h2lc h2rc h2ln h2rn h2lb h2rb in
/-- The pre-activation as a tile spells it: both feature blocks cast to their own shapes, the first product biased,
    the second added. -/
theorem pre_tile (A : FVec Ideal ⟨2, ![a, k]⟩ .f32) (Wl : FVec Ideal ⟨2, ![k, n]⟩ .f32) (B : FVec Ideal ⟨2, ![1, n]⟩ .f32)
    (X : FVec Ideal ⟨2, ![a, k']⟩ .f32) (Wr : FVec Ideal ⟨2, ![k', n]⟩ .f32)
    (hcA : (⟨2, ![a, k]⟩ : Shape).ShapeCasts ⟨2, ![a, k]⟩) (hcX : (⟨2, ![a, k']⟩ : Shape).ShapeCasts ⟨2, ![a, k']⟩)
    (hcB : (⟨2, ![1, n]⟩ : Shape).ShapeCasts ⟨2, ![1, n]⟩) (hbB : (⟨2, ![1, n]⟩ : Shape).Broadcasts ⟨2, ![a, n]⟩)
    (r : Fin a) (q : Fin n) :
    addf (addf (matmul d1 none (shapeCast ⟨2, ![a, k]⟩ A hcA) Wl (constant (F := Ideal) ⟨2, ![a, n]⟩ .f32 0x00000000#32))
          (broadcastTo ⟨2, ![a, n]⟩ (shapeCast ⟨2, ![1, n]⟩ B hcB) hbB))
        (matmul d2 none (shapeCast ⟨2, ![a, k']⟩ X hcX) Wr (constant (F := Ideal) ⟨2, ![a, n]⟩ .f32 0x00000000#32))
        (ix2 r q)
      = Cert.Sage.pre A Wl B X Wr (ix2 r q) := by
  rw [shapeCast_self A hcA, shapeCast_self X hcX, addf_apply, biased_tile d1 h1lc h1rc h1ln h1rn h1lb h1rb]
  exact congrArg (Cert.Dense.biased A Wl B (ix2 r q) + ·)
    (Cert.LibMatmulPlain.matmul_zero_apply d2 h2lc h2rc h2ln h2rn h2lb h2rb none X Wr r q)

include h1lc h1rc h1ln h1rn h1lb h1rb h2lc h2rc h2ln h2rn h2lb h2rb in
/-- One layer as a tile spells it: the comparison of the pre-activation with the threshold spread over the block
    selects between the pre-activation and the slope, spread over the block, times it. -/
theorem act_tile (z t : Ideal .f32) (A : FVec Ideal ⟨2, ![a, k]⟩ .f32) (Wl : FVec Ideal ⟨2, ![k, n]⟩ .f32)
    (B : FVec Ideal ⟨2, ![1, n]⟩ .f32) (X : FVec Ideal ⟨2, ![a, k']⟩ .f32) (Wr : FVec Ideal ⟨2, ![k', n]⟩ .f32)
    (hcA : (⟨2, ![a, k]⟩ : Shape).ShapeCasts ⟨2, ![a, k]⟩) (hcX : (⟨2, ![a, k']⟩ : Shape).ShapeCasts ⟨2, ![a, k']⟩)
    (hcB : (⟨2, ![1, n]⟩ : Shape).ShapeCasts ⟨2, ![1, n]⟩) (hbB : (⟨2, ![1, n]⟩ : Shape).Broadcasts ⟨2, ![a, n]⟩)
    (H : FVec Ideal ⟨2, ![a, n]⟩ .f32)
    (hH : H = addf (addf (matmul d1 none (shapeCast ⟨2, ![a, k]⟩ A hcA) Wl
              (constant (F := Ideal) ⟨2, ![a, n]⟩ .f32 0x00000000#32))
            (broadcastTo ⟨2, ![a, n]⟩ (shapeCast ⟨2, ![1, n]⟩ B hcB) hbB))
          (matmul d2 none (shapeCast ⟨2, ![a, k']⟩ X hcX) Wr (constant (F := Ideal) ⟨2, ![a, n]⟩ .f32 0x00000000#32))) :
    select (cmpf .oge H (broadcast ⟨2, ![a, n]⟩ z)) H (mulf (broadcast ⟨2, ![a, n]⟩ t) H)
      = Cert.Sage.act z t A Wl B X Wr := by
  funext j
  obtain ⟨r, q, rfl⟩ : ∃ (r : Fin a) (q : Fin n), j = ix2 r q := ⟨j 0, j 1, eq_ix2 j⟩
  have e : H (ix2 r q) = Cert.Sage.pre A Wl B X Wr (ix2 r q) := by
    rw [hH]
    exact pre_tile d1 h1lc h1rc h1ln h1rn h1lb h1rb d2 h2lc h2rc h2ln h2rn h2lb h2rb A Wl B X Wr hcA hcX hcB hbB r q
  exact congrArg (Cert.Sage.leaky z t) e

end General

/-- The encoder tile is the encoder, one half spelled by its 32-bit word. -/
theorem pay0 (x0 : Vec Ideal S4000x1024 .f32) (x1 : Vec Ideal S1024x128 .f32) (x3 : Vec Ideal S1x128 .f32)
    (x7 : Vec Ideal S4000x256 .f32) (x8 : Vec Ideal S256x128 .f32) (x10 : Vec Ideal S1x128 .f32) :
    k0_pay1 (F := Ideal) x0 x1 x3 x7 x8 x10
      = Cert.Sage.enc (Ideal.ofBits .f32 0x3F000000#32) x0 x1 x3 x7 x8 x10 := by
  funext j
  obtain ⟨p, q, rfl⟩ : ∃ (p : Fin 4000) (q : Fin 128), j = ix2 p q := ⟨j 0, j 1, eq_ix2 j⟩
  unfold k0_pay1
  refine (mulf_apply _ _ _).trans (congrArg (· * Ideal.ofBits .f32 0x3F000000#32) ?_)
  refine (addf_apply _ _ _).trans (congrArg₂ (· + ·) ?_ ?_)
  · exact biased_tile dot_S4000x1024_S1024x128_S4000x128_1_0_0_1_n_n rfl rfl rfl rfl rfl rfl x0 x1 x3 _ _ p q
  · exact biased_tile dot_S4000x256_S256x128_S4000x128_1_0_0_1_n_n rfl rfl rfl rfl rfl rfl x7 x8 x10 _ _ p q

/-- The layer tile is one layer, the threshold zero and the slope one tenth spelled by their 32-bit words. -/
theorem pay1 (x0 : Vec Ideal S4000x64 .f32) (x2 : Vec Ideal S64x128 .f32) (x4 : Vec Ideal S1x128 .f32)
    (x8 : Vec Ideal S4000x128 .f32) (x10 : Vec Ideal S128x128 .f32) :
    k1_pay1 (F := Ideal) x0 x2 x4 x8 x10
      = Cert.Sage.act (Ideal.ofBits .f32 0x00000000#32) (Ideal.ofBits .f32 0x3DCCCCCD#32) x0 x2 x4 x8 x10 := by
  unfold k1_pay1
  exact act_tile dot_S4000x64_S64x128_S4000x128_1_0_0_1_n_n rfl rfl rfl rfl rfl rfl
    dot_S4000x128_S128x128_S4000x128_1_0_0_1_n_n rfl rfl rfl rfl rfl rfl _ _ x0 x2 x4 x8 x10 _ _ _ _ _ rfl

/-- The last tile is the last layer followed by the linear head. -/
theorem pay2 (x0 : Vec Ideal S4000x128 .f32) (x2 : Vec Ideal S128x128 .f32) (x4 : Vec Ideal S1x128 .f32)
    (x8 : Vec Ideal S4000x128 .f32) (x10 : Vec Ideal S128x128 .f32) (x18 : Vec Ideal S128x1 .f32)
    (x20 : Vec Ideal S1x1 .f32) :
    k2_pay1 (F := Ideal) x0 x2 x4 x8 x10 x18 x20
      = Cert.Sage.head (Ideal.ofBits .f32 0x00000000#32) (Ideal.ofBits .f32 0x3DCCCCCD#32) x0 x2 x4 x8 x10 x18 x20 := by
  funext j
  obtain ⟨p, q, rfl⟩ : ∃ (p : Fin 4000) (q : Fin 1), j = ix2 p q := ⟨j 0, j 1, eq_ix2 j⟩
  unfold k2_pay1
  refine (biased_tile dot_S4000x128_S128x1_S4000x1_1_0_0_1_n_n rfl rfl rfl rfl rfl rfl _ x18 x20 _ _ p q).trans ?_
  refine congrArg (fun Y => Cert.Dense.biased Y x18 x20 (ix2 p q)) ?_
  exact act_tile dot_S4000x128_S128x128_S4000x128_1_0_0_1_n_n rfl rfl rfl rfl rfl rfl
    dot_S4000x128_S128x128_S4000x128_1_0_0_1_n_n rfl rfl rfl rfl rfl rfl _ _ x0 x2 x4 x8 x10 _ _ _ _ _ rfl

end Cert.KernelIdeal.Tiles

end
-- ==== Proof.Region0Value.lean ====
/-
  The encoder's grid, read as a value.

  Fifty grid points each take 4000 consecutive rows of the two raw feature arrays, the two whole weight matrices and the
  two bias rows, and write 4000 rows of the encoded features: half the sum of the two biased products.  A row of the
  result depends on the same row of the features only, so the fifty blocks together are that function of the whole
  arrays, row by row, and they tile the output array.
-/
import proofs.«114619_j71399536329138_2_alg».proof.Proof.Gen.KernelIdeal.Frame
import proofs.«114619_j71399536329138_2_alg».proof.Proof.Tiles
import proofs.«114619_j71399536329138_2_alg».proof.Proof.LibSage

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffer contents the grid finds when it is entered
variable (V : (c : Dev nD) → (b : Ref sig .tc) → Buf (Elt Ideal) ((c : Thread nD τ).loc b))

theorem hz : (![0, 0] : Fin 2 → Nat) = fun _ => 0 := funext fun a => by fin_cases a <;> rfl

/-- The block index of every window at grid point `t`: the row-blocked windows sit at block row `t`, the weights and
    bias rows at block (0, 0). Decided over the fifty points. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- What the output array holds after the grid, as one function of the arrays the grid finds. -/
abbrev spec (c : Dev nD) : S200000x128.Idx → EReal :=
  Cert.Sage.enc (Ideal.ofBits .f32 0x3F000000#32) (V c main_arg0 : S200000x1024.Idx → EReal) (V c main_arg7 : S1024x128.Idx → EReal) (V c main_call0_v0 : S1x128.Idx → EReal) (V c main_arg1 : S200000x256.Idx → EReal) (V c main_arg9 : S256x128.Idx → EReal) (V c main_call0_v1 : S1x128.Idx → EReal)

/-- Input block 0 at point `t` is the block of 4000 consecutive rows of its array that starts at row `4000 t`. -/
theorem blk0 (c : Dev nD) (t : Fin cfg0.N) (ht : t.val * 4000 + 4000 ≤ 200000) :
    iblk0 V c 0 t = Cert.Sage.rows (t.val * 4000) ht (V c main_arg0 : S200000x1024.Idx → EReal) := by
  funext y
  show (V c main_arg0 : S200000x1024.Idx → EReal) (((cfg0.win 0).blk t).view.emb y)
    = (V c main_arg0 : S200000x1024.Idx → EReal) (ix2 (⟨t.val * 4000 + (y 0).val, by have h : (y 0).val < 4000 := (y 0).isLt; omega⟩ : Fin 200000) (y 1))
  refine congrArg _ (funext fun a => Fin.ext ?_)
  obtain ⟨e00, e01, e10, e11, e20, e21, e30, e31, e40, e41, e50, e51, e60, e61⟩ := idx_facts t
  match a with
  | ⟨0, _⟩ => show win0_0.index t (0 : Fin 2) * 4000 + 1 * (y 0).val = t.val * 4000 + (y 0).val; omega
  | ⟨1, _⟩ => show win0_0.index t (1 : Fin 2) * 1024 + 1 * (y 1).val = (y 1).val; omega

/-- Input block 1 at point `t` is the block of 4000 consecutive rows of its array that starts at row `4000 t`. -/
theorem blk1 (c : Dev nD) (t : Fin cfg0.N) (ht : t.val * 4000 + 4000 ≤ 200000) :
    iblk0 V c 1 t = Cert.Sage.rows (t.val * 4000) ht (V c main_arg1 : S200000x256.Idx → EReal) := by
  funext y
  show (V c main_arg1 : S200000x256.Idx → EReal) (((cfg0.win 1).blk t).view.emb y)
    = (V c main_arg1 : S200000x256.Idx → EReal) (ix2 (⟨t.val * 4000 + (y 0).val, by have h : (y 0).val < 4000 := (y 0).isLt; omega⟩ : Fin 200000) (y 1))
  refine congrArg _ (funext fun a => Fin.ext ?_)
  obtain ⟨e00, e01, e10, e11, e20, e21, e30, e31, e40, e41, e50, e51, e60, e61⟩ := idx_facts t
  match a with
  | ⟨0, _⟩ => show win0_1.index t (0 : Fin 2) * 4000 + 1 * (y 0).val = t.val * 4000 + (y 0).val; omega
  | ⟨1, _⟩ => show win0_1.index t (1 : Fin 2) * 256 + 1 * (y 1).val = (y 1).val; omega

/-- Input block 2 is its whole array at every point. -/
theorem blk2 (c : Dev nD) (t : Fin cfg0.N) : iblk0 V c 2 t = (V c main_arg7 : S1024x128.Idx → EReal) := by
  funext y
  show (V c main_arg7 : S1024x128.Idx → EReal) (((cfg0.win 2).blk t).view.emb y) = (V c main_arg7 : S1024x128.Idx → EReal) y
  refine congrArg _ (funext fun a => Fin.ext ?_)
  obtain ⟨e00, e01, e10, e11, e20, e21, e30, e31, e40, e41, e50, e51, e60, e61⟩ := idx_facts t
  match a with
  | ⟨0, _⟩ => show win0_2.index t (0 : Fin 2) * 1024 + 1 * (y 0).val = (y 0).val; omega
  | ⟨1, _⟩ => show win0_2.index t (1 : Fin 2) * 128 + 1 * (y 1).val = (y 1).val; omega

/-- Input block 3 is its whole array at every point. -/
theorem blk3 (c : Dev nD) (t : Fin cfg0.N) : iblk0 V c 3 t = (V c main_call0_v0 : S1x128.Idx → EReal) := by
  funext y
  show (V c main_call0_v0 : S1x128.Idx → EReal) (((cfg0.win 3).blk t).view.emb y) = (V c main_call0_v0 : S1x128.Idx → EReal) y
  refine congrArg _ (funext fun a => Fin.ext ?_)
  obtain ⟨e00, e01, e10, e11, e20, e21, e30, e31, e40, e41, e50, e51, e60, e61⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Input block 4 is its whole array at every point. -/
theorem blk4 (c : Dev nD) (t : Fin cfg0.N) : iblk0 V c 4 t = (V c main_arg9 : S256x128.Idx → EReal) := by
  funext y
  show (V c main_arg9 : S256x128.Idx → EReal) (((cfg0.win 4).blk t).view.emb y) = (V c main_arg9 : S256x128.Idx → EReal) y
  refine congrArg _ (funext fun a => Fin.ext ?_)
  obtain ⟨e00, e01, e10, e11, e20, e21, e30, e31, e40, e41, e50, e51, e60, e61⟩ := idx_facts t
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- Input block 5 is its whole array at every point. -/
theorem blk5 (c : Dev nD) (t : Fin cfg0.N) : iblk0 V c 5 t = (V c main_call0_v1 : S1x128.Idx → EReal) := by
  funext y
  show (V c main_call0_v1 : S1x128.Idx → EReal) (((cfg0.win 5).blk t).view.emb y) = (V c main_call0_v1 : S1x128.Idx → EReal) y
  refine congrArg _ (funext fun a => Fin.ext ?_)
  obtain ⟨e00, e01, e10, e11, e20, e21, e30, e31, e40, e41, e50, e51, e60, e61⟩ := idx_facts t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The output block's entry (p, q) at point `t` is the array's entry (4000 t + p, q). -/
theorem emb_out (t : Fin cfg0.N) (ht : t.val * 4000 + 4000 ≤ 200000) (p : Fin 4000) (q : Fin 128) :
    ((cfg0.win 6).blk t).view.emb (ix2 p q) = ix2 (⟨t.val * 4000 + p.val, by omega⟩ : Fin 200000) q := by
  funext a; apply Fin.ext
  obtain ⟨e00, e01, e10, e11, e20, e21, e30, e31, e40, e41, e50, e51, e60, e61⟩ := idx_facts t
  match a with
  | ⟨0, _⟩ => show win0_6.index t (0 : Fin 2) * 4000 + 1 * p.val = t.val * 4000 + p.val; omega
  | ⟨1, _⟩ => show win0_6.index t (1 : Fin 2) * 128 + 1 * q.val = q.val; omega

/-- What point `t` writes back is block `t` of `spec`: the body's value on the loaded blocks is the layer on 4000
    consecutive rows, and the layer depends on a row of the features only. -/
theorem flushed (c : Dev nD) (t : Fin cfg0.N) :
    (dat0 V c).flushed 6 t = ((cfg0.win 6).blk t).view.read (Elt Ideal) (spec V c) := by
  have ht : t.val * 4000 + 4000 ≤ 200000 := by
    have h : t.val < 50 := lt_of_lt_of_eq t.isLt N_0
    omega
  show (cfg0.win 6).cut (grid0.coords t) ((dat0 V c).after 6 t) = _
  rw [after0_6]
  unfold out0_6
  rw [View.canon_unit_zero hz]
  simp only [View.ld_unit_zero (S := S4000x1024) hz, View.ld_unit_zero (S := S4000x256) hz, View.ld_unit_zero (S := S1024x128) hz, View.ld_unit_zero (S := S1x128) hz, View.ld_unit_zero (S := S256x128) hz]
  rw [Cert.KernelIdeal.Tiles.pay0, blk0 V c t ht, blk1 V c t ht, blk2 V c t, blk3 V c t, blk4 V c t, blk5 V c t]
  funext j
  obtain ⟨p, q, rfl⟩ : ∃ (p : Fin 4000) (q : Fin 128), j = ix2 p q := ⟨j 0, j 1, eq_ix2 j⟩
  show _ = spec V c (((cfg0.win 6).blk t).view.emb (ix2 p q))
  rw [emb_out t ht p q]
  rfl

/-- An index of the output array lies in point `t`'s block iff each coordinate is in the block's range. -/
theorem mem_blk (t : Fin cfg0.N) (i : S200000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_call0_v2).slice (win0_6.rect t)).set ↔ _
  rw [View.set_slice_whole, Rect.mem_set_unit]
  exact Iff.rfl

/-- Every row lies in the block of the point `row / 4000`: the fifty blocks tile the array. -/
theorem cover (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  have hN : cfg0.N = 50 := N_0
  let t : Fin cfg0.N := ⟨(i 0).val / 4000, by rw [hN]; omega⟩
  have htv : t.val = (i 0).val / 4000 := rfl
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- THE OUTPUT ARRAY after the grid is `spec` of the arrays the grid found. -/
theorem value (c : Dev nD) : (dat0 V c).arrAt 6 cfg0.N = spec V c :=
  (dat0 V c).arrAt_eq_of_cover 6 (spec V c) (fun t _ => flushed V c t) (cover)

end Cert.KernelIdeal.Region0

end
-- ==== Proof.Region1Value.lean ====
/-
  The first dense layer's grid, read as a value.

  Fifty grid points each take 4000 consecutive rows of the aggregated neighbour features and of the node's own
  features, two whole weight matrices and a bias row, and write 4000 rows of the rectified pre-activation.  A row of the
  result depends on the same row of the two feature arrays only, so the fifty blocks together are the layer on the whole
  arrays, and they tile the output array.
-/
import proofs.«114619_j71399536329138_2_alg».proof.Proof.Gen.KernelIdeal.Frame
import proofs.«114619_j71399536329138_2_alg».proof.Proof.Tiles
import proofs.«114619_j71399536329138_2_alg».proof.Proof.LibSage

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffer contents the grid finds when it is entered
variable (V : (c : Dev nD) → (b : Ref sig .tc) → Buf (Elt Ideal) ((c : Thread nD τ).loc b))

theorem hz : (![0, 0] : Fin 2 → Nat) = fun _ => 0 := funext fun a => by fin_cases a <;> rfl

/-- The block index of every window at grid point `t`: the row-blocked windows sit at block row `t`, the weights and
    bias rows at block (0, 0). Decided over the fifty points. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- What the output array holds after the grid, as one function of the arrays the grid finds. -/
abbrev spec (c : Dev nD) : S200000x128.Idx → EReal :=
  Cert.Sage.act (Ideal.ofBits .f32 0x00000000#32) (Ideal.ofBits .f32 0x3DCCCCCD#32) (V c main_call0_v51 : S200000x64.Idx → EReal) (V c main_arg14 : S64x128.Idx → EReal) (V c main_call0_v53 : S1x128.Idx → EReal) (V c main_call0_v2 : S200000x128.Idx → EReal) (V c main_arg16 : S128x128.Idx → EReal)

/-- Input block 0 at point `t` is the block of 4000 consecutive rows of its array that starts at row `4000 t`. -/
theorem blk0 (c : Dev nD) (t : Fin cfg1.N) (ht : t.val * 4000 + 4000 ≤ 200000) :
    iblk1 V c 0 t = Cert.Sage.rows (t.val * 4000) ht (V c main_call0_v51 : S200000x64.Idx → EReal) := by
  funext y
  show (V c main_call0_v51 : S200000x64.Idx → EReal) (((cfg1.win 0).blk t).view.emb y)
    = (V c main_call0_v51 : S200000x64.Idx → EReal) (ix2 (⟨t.val * 4000 + (y 0).val, by have h : (y 0).val < 4000 := (y 0).isLt; omega⟩ : Fin 200000) (y 1))
  refine congrArg _ (funext fun a => Fin.ext ?_)
  obtain ⟨e00, e01, e10, e11, e20, e21, e30, e31, e40, e41, e50, e51⟩ := idx_facts t
  match a with
  | ⟨0, _⟩ => show win1_0.index t (0 : Fin 2) * 4000 + 1 * (y 0).val = t.val * 4000 + (y 0).val; omega
  | ⟨1, _⟩ => show win1_0.index t (1 : Fin 2) * 64 + 1 * (y 1).val = (y 1).val; omega

/-- Input block 1 at point `t` is the block of 4000 consecutive rows of its array that starts at row `4000 t`. -/
theorem blk1 (c : Dev nD) (t : Fin cfg1.N) (ht : t.val * 4000 + 4000 ≤ 200000) :
    iblk1 V c 1 t = Cert.Sage.rows (t.val * 4000) ht (V c main_call0_v2 : S200000x128.Idx → EReal) := by
  funext y
  show (V c main_call0_v2 : S200000x128.Idx → EReal) (((cfg1.win 1).blk t).view.emb y)
    = (V c main_call0_v2 : S200000x128.Idx → EReal) (ix2 (⟨t.val * 4000 + (y 0).val, by have h : (y 0).val < 4000 := (y 0).isLt; omega⟩ : Fin 200000) (y 1))
  refine congrArg _ (funext fun a => Fin.ext ?_)
  obtain ⟨e00, e01, e10, e11, e20, e21, e30, e31, e40, e41, e50, e51⟩ := idx_facts t
  match a with
  | ⟨0, _⟩ => show win1_1.index t (0 : Fin 2) * 4000 + 1 * (y 0).val = t.val * 4000 + (y 0).val; omega
  | ⟨1, _⟩ => show win1_1.index t (1 : Fin 2) * 128 + 1 * (y 1).val = (y 1).val; omega

/-- Input block 2 is its whole array at every point. -/
theorem blk2 (c : Dev nD) (t : Fin cfg1.N) : iblk1 V c 2 t = (V c main_arg14 : S64x128.Idx → EReal) := by
  funext y
  show (V c main_arg14 : S64x128.Idx → EReal) (((cfg1.win 2).blk t).view.emb y) = (V c main_arg14 : S64x128.Idx → EReal) y
  refine congrArg _ (funext fun a => Fin.ext ?_)
  obtain ⟨e00, e01, e10, e11, e20, e21, e30, e31, e40, e41, e50, e51⟩ := idx_facts t
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- Input block 3 is its whole array at every point. -/
theorem blk3 (c : Dev nD) (t : Fin cfg1.N) : iblk1 V c 3 t = (V c main_call0_v53 : S1x128.Idx → EReal) := by
  funext y
  show (V c main_call0_v53 : S1x128.Idx → EReal) (((cfg1.win 3).blk t).view.emb y) = (V c main_call0_v53 : S1x128.Idx → EReal) y
  refine congrArg _ (funext fun a => Fin.ext ?_)
  obtain ⟨e00, e01, e10, e11, e20, e21, e30, e31, e40, e41, e50, e51⟩ := idx_facts t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Input block 4 is its whole array at every point. -/
theorem blk4 (c : Dev nD) (t : Fin cfg1.N) : iblk1 V c 4 t = (V c main_arg16 : S128x128.Idx → EReal) := by
  funext y
  show (V c main_arg16 : S128x128.Idx → EReal) (((cfg1.win 4).blk t).view.emb y) = (V c main_arg16 : S128x128.Idx → EReal) y
  refine congrArg _ (funext fun a => Fin.ext ?_)
  obtain ⟨e00, e01, e10, e11, e20, e21, e30, e31, e40, e41, e50, e51⟩ := idx_facts t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The output block's entry (p, q) at point `t` is the array's entry (4000 t + p, q). -/
theorem emb_out (t : Fin cfg1.N) (ht : t.val * 4000 + 4000 ≤ 200000) (p : Fin 4000) (q : Fin 128) :
    ((cfg1.win 5).blk t).view.emb (ix2 p q) = ix2 (⟨t.val * 4000 + p.val, by omega⟩ : Fin 200000) q := by
  funext a; apply Fin.ext
  obtain ⟨e00, e01, e10, e11, e20, e21, e30, e31, e40, e41, e50, e51⟩ := idx_facts t
  match a with
  | ⟨0, _⟩ => show win1_5.index t (0 : Fin 2) * 4000 + 1 * p.val = t.val * 4000 + p.val; omega
  | ⟨1, _⟩ => show win1_5.index t (1 : Fin 2) * 128 + 1 * q.val = q.val; omega

/-- What point `t` writes back is block `t` of `spec`: the body's value on the loaded blocks is the layer on 4000
    consecutive rows, and the layer depends on a row of the features only. -/
theorem flushed (c : Dev nD) (t : Fin cfg1.N) :
    (dat1 V c).flushed 5 t = ((cfg1.win 5).blk t).view.read (Elt Ideal) (spec V c) := by
  have ht : t.val * 4000 + 4000 ≤ 200000 := by
    have h : t.val < 50 := lt_of_lt_of_eq t.isLt N_1
    omega
  show (cfg1.win 5).cut (grid1.coords t) ((dat1 V c).after 5 t) = _
  rw [after1_5]
  unfold out1_5
  rw [View.canon_unit_zero hz]
  simp only [View.ld_unit_zero (S := S4000x64) hz, View.ld_unit_zero (S := S4000x128) hz, View.ld_unit_zero (S := S64x128) hz, View.ld_unit_zero (S := S1x128) hz, View.ld_unit_zero (S := S128x128) hz]
  rw [Cert.KernelIdeal.Tiles.pay1, blk0 V c t ht, blk1 V c t ht, blk2 V c t, blk3 V c t, blk4 V c t]
  funext j
  obtain ⟨p, q, rfl⟩ : ∃ (p : Fin 4000) (q : Fin 128), j = ix2 p q := ⟨j 0, j 1, eq_ix2 j⟩
  show _ = spec V c (((cfg1.win 5).blk t).view.emb (ix2 p q))
  rw [emb_out t ht p q]
  rfl

/-- An index of the output array lies in point `t`'s block iff each coordinate is in the block's range. -/
theorem mem_blk (t : Fin cfg1.N) (i : S200000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_call0_v54).slice (win1_5.rect t)).set ↔ _
  rw [View.set_slice_whole, Rect.mem_set_unit]
  exact Iff.rfl

/-- Every row lies in the block of the point `row / 4000`: the fifty blocks tile the array. -/
theorem cover (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  have hN : cfg1.N = 50 := N_1
  let t : Fin cfg1.N := ⟨(i 0).val / 4000, by rw [hN]; omega⟩
  have htv : t.val = (i 0).val / 4000 := rfl
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE OUTPUT ARRAY after the grid is `spec` of the arrays the grid found. -/
theorem value (c : Dev nD) : (dat1 V c).arrAt 5 cfg1.N = spec V c :=
  (dat1 V c).arrAt_eq_of_cover 5 (spec V c) (fun t _ => flushed V c t) (cover)

end Cert.KernelIdeal.Region1

end
-- ==== Proof.Region2Value.lean ====
/-
  The last dense layer's grid with the linear head, read as a value.

  Fifty grid points each take 4000 consecutive rows of the aggregated neighbour features and of the node's own
  features, the layer's weights and bias row, the head's weight column and bias, and write 4000 entries of the output
  column: the rectified pre-activation times the head's column plus its bias.  An entry depends on the same row of the two
  feature arrays only, so the fifty blocks together are that function of the whole arrays, and they tile the column.
-/
import proofs.«114619_j71399536329138_2_alg».proof.Proof.Gen.KernelIdeal.Frame
import proofs.«114619_j71399536329138_2_alg».proof.Proof.Tiles
import proofs.«114619_j71399536329138_2_alg».proof.Proof.LibSage

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffer contents the grid finds when it is entered
variable (V : (c : Dev nD) → (b : Ref sig .tc) → Buf (Elt Ideal) ((c : Thread nD τ).loc b))

theorem hz : (![0, 0] : Fin 2 → Nat) = fun _ => 0 := funext fun a => by fin_cases a <;> rfl

/-- The block index of every window at grid point `t`: the row-blocked windows sit at block row `t`, the weights and
    bias rows at block (0, 0). Decided over the fifty points. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- What the output array holds after the grid, as one function of the arrays the grid finds. -/
abbrev spec (c : Dev nD) : S200000x1.Idx → EReal :=
  Cert.Sage.head (Ideal.ofBits .f32 0x00000000#32) (Ideal.ofBits .f32 0x3DCCCCCD#32) (V c main_call0_v52 : S200000x128.Idx → EReal) (V c main_arg20 : S128x128.Idx → EReal) (V c main_call0_v55 : S1x128.Idx → EReal) (V c main_call0_v54 : S200000x128.Idx → EReal) (V c main_arg22 : S128x128.Idx → EReal) (V c main_arg23 : S128x1.Idx → EReal) (V c main_call0_v56 : S1x1.Idx → EReal)

/-- Input block 0 at point `t` is the block of 4000 consecutive rows of its array that starts at row `4000 t`. -/
theorem blk0 (c : Dev nD) (t : Fin cfg2.N) (ht : t.val * 4000 + 4000 ≤ 200000) :
    iblk2 V c 0 t = Cert.Sage.rows (t.val * 4000) ht (V c main_call0_v52 : S200000x128.Idx → EReal) := by
  funext y
  show (V c main_call0_v52 : S200000x128.Idx → EReal) (((cfg2.win 0).blk t).view.emb y)
    = (V c main_call0_v52 : S200000x128.Idx → EReal) (ix2 (⟨t.val * 4000 + (y 0).val, by have h : (y 0).val < 4000 := (y 0).isLt; omega⟩ : Fin 200000) (y 1))
  refine congrArg _ (funext fun a => Fin.ext ?_)
  obtain ⟨e00, e01, e10, e11, e20, e21, e30, e31, e40, e41, e50, e51, e60, e61, e70, e71⟩ := idx_facts t
  match a with
  | ⟨0, _⟩ => show win2_0.index t (0 : Fin 2) * 4000 + 1 * (y 0).val = t.val * 4000 + (y 0).val; omega
  | ⟨1, _⟩ => show win2_0.index t (1 : Fin 2) * 128 + 1 * (y 1).val = (y 1).val; omega

/-- Input block 1 at point `t` is the block of 4000 consecutive rows of its array that starts at row `4000 t`. -/
theorem blk1 (c : Dev nD) (t : Fin cfg2.N) (ht : t.val * 4000 + 4000 ≤ 200000) :
    iblk2 V c 1 t = Cert.Sage.rows (t.val * 4000) ht (V c main_call0_v54 : S200000x128.Idx → EReal) := by
  funext y
  show (V c main_call0_v54 : S200000x128.Idx → EReal) (((cfg2.win 1).blk t).view.emb y)
    = (V c main_call0_v54 : S200000x128.Idx → EReal) (ix2 (⟨t.val * 4000 + (y 0).val, by have h : (y 0).val < 4000 := (y 0).isLt; omega⟩ : Fin 200000) (y 1))
  refine congrArg _ (funext fun a => Fin.ext ?_)
  obtain ⟨e00, e01, e10, e11, e20, e21, e30, e31, e40, e41, e50, e51, e60, e61, e70, e71⟩ := idx_facts t
  match a with
  | ⟨0, _⟩ => show win2_1.index t (0 : Fin 2) * 4000 + 1 * (y 0).val = t.val * 4000 + (y 0).val; omega
  | ⟨1, _⟩ => show win2_1.index t (1 : Fin 2) * 128 + 1 * (y 1).val = (y 1).val; omega

/-- Input block 2 is its whole array at every point. -/
theorem blk2 (c : Dev nD) (t : Fin cfg2.N) : iblk2 V c 2 t = (V c main_arg20 : S128x128.Idx → EReal) := by
  funext y
  show (V c main_arg20 : S128x128.Idx → EReal) (((cfg2.win 2).blk t).view.emb y) = (V c main_arg20 : S128x128.Idx → EReal) y
  refine congrArg _ (funext fun a => Fin.ext ?_)
  obtain ⟨e00, e01, e10, e11, e20, e21, e30, e31, e40, e41, e50, e51, e60, e61, e70, e71⟩ := idx_facts t
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Input block 3 is its whole array at every point. -/
theorem blk3 (c : Dev nD) (t : Fin cfg2.N) : iblk2 V c 3 t = (V c main_call0_v55 : S1x128.Idx → EReal) := by
  funext y
  show (V c main_call0_v55 : S1x128.Idx → EReal) (((cfg2.win 3).blk t).view.emb y) = (V c main_call0_v55 : S1x128.Idx → EReal) y
  refine congrArg _ (funext fun a => Fin.ext ?_)
  obtain ⟨e00, e01, e10, e11, e20, e21, e30, e31, e40, e41, e50, e51, e60, e61, e70, e71⟩ := idx_facts t
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Input block 4 is its whole array at every point. -/
theorem blk4 (c : Dev nD) (t : Fin cfg2.N) : iblk2 V c 4 t = (V c main_arg22 : S128x128.Idx → EReal) := by
  funext y
  show (V c main_arg22 : S128x128.Idx → EReal) (((cfg2.win 4).blk t).view.emb y) = (V c main_arg22 : S128x128.Idx → EReal) y
  refine congrArg _ (funext fun a => Fin.ext ?_)
  obtain ⟨e00, e01, e10, e11, e20, e21, e30, e31, e40, e41, e50, e51, e60, e61, e70, e71⟩ := idx_facts t
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Input block 5 is its whole array at every point. -/
theorem blk5 (c : Dev nD) (t : Fin cfg2.N) : iblk2 V c 5 t = (V c main_arg23 : S128x1.Idx → EReal) := by
  funext y
  show (V c main_arg23 : S128x1.Idx → EReal) (((cfg2.win 5).blk t).view.emb y) = (V c main_arg23 : S128x1.Idx → EReal) y
  refine congrArg _ (funext fun a => Fin.ext ?_)
  obtain ⟨e00, e01, e10, e11, e20, e21, e30, e31, e40, e41, e50, e51, e60, e61, e70, e71⟩ := idx_facts t
  match a with
  | ⟨0, _⟩ => show win2_5.index t (0 : Fin 2) * 128 + 1 * (y 0).val = (y 0).val; omega
  | ⟨1, _⟩ => show win2_5.index t (1 : Fin 2) * 1 + 1 * (y 1).val = (y 1).val; omega

/-- Input block 6 is its whole array at every point. -/
theorem blk6 (c : Dev nD) (t : Fin cfg2.N) : iblk2 V c 6 t = (V c main_call0_v56 : S1x1.Idx → EReal) := by
  funext y
  show (V c main_call0_v56 : S1x1.Idx → EReal) (((cfg2.win 6).blk t).view.emb y) = (V c main_call0_v56 : S1x1.Idx → EReal) y
  refine congrArg _ (funext fun a => Fin.ext ?_)
  obtain ⟨e00, e01, e10, e11, e20, e21, e30, e31, e40, e41, e50, e51, e60, e61, e70, e71⟩ := idx_facts t
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- The output block's entry (p, q) at point `t` is the array's entry (4000 t + p, q). -/
theorem emb_out (t : Fin cfg2.N) (ht : t.val * 4000 + 4000 ≤ 200000) (p : Fin 4000) (q : Fin 1) :
    ((cfg2.win 7).blk t).view.emb (ix2 p q) = ix2 (⟨t.val * 4000 + p.val, by omega⟩ : Fin 200000) q := by
  funext a; apply Fin.ext
  obtain ⟨e00, e01, e10, e11, e20, e21, e30, e31, e40, e41, e50, e51, e60, e61, e70, e71⟩ := idx_facts t
  match a with
  | ⟨0, _⟩ => show win2_7.index t (0 : Fin 2) * 4000 + 1 * p.val = t.val * 4000 + p.val; omega
  | ⟨1, _⟩ => show win2_7.index t (1 : Fin 2) * 1 + 1 * q.val = q.val; omega

/-- What point `t` writes back is block `t` of `spec`: the body's value on the loaded blocks is the layer on 4000
    consecutive rows, and the layer depends on a row of the features only. -/
theorem flushed (c : Dev nD) (t : Fin cfg2.N) :
    (dat2 V c).flushed 7 t = ((cfg2.win 7).blk t).view.read (Elt Ideal) (spec V c) := by
  have ht : t.val * 4000 + 4000 ≤ 200000 := by
    have h : t.val < 50 := lt_of_lt_of_eq t.isLt N_2
    omega
  show (cfg2.win 7).cut (grid2.coords t) ((dat2 V c).after 7 t) = _
  rw [after2_7]
  unfold out2_7
  rw [View.canon_unit_zero hz]
  simp only [View.ld_unit_zero (S := S4000x128) hz, View.ld_unit_zero (S := S128x128) hz, View.ld_unit_zero (S := S1x128) hz, View.ld_unit_zero (S := S128x1) hz, View.ld_unit_zero (S := S1x1) hz]
  rw [Cert.KernelIdeal.Tiles.pay2, blk0 V c t ht, blk1 V c t ht, blk2 V c t, blk3 V c t, blk4 V c t, blk5 V c t, blk6 V c t]
  funext j
  obtain ⟨p, q, rfl⟩ : ∃ (p : Fin 4000) (q : Fin 1), j = ix2 p q := ⟨j 0, j 1, eq_ix2 j⟩
  show _ = spec V c (((cfg2.win 7).blk t).view.emb (ix2 p q))
  rw [emb_out t ht p q]
  rfl

/-- An index of the output array lies in point `t`'s block iff each coordinate is in the block's range. -/
theorem mem_blk (t : Fin cfg2.N) (i : S200000x1.Idx) :
    i ∈ ((cfg2.win 7).blk t).view.set ↔ ∀ a : Fin 2, win2_7.index t a * S4000x1.size a ≤ (i a).val
      ∧ (i a).val < win2_7.index t a * S4000x1.size a + S4000x1.size a := by
  show i ∈ ((View.whole main_call0_v57).slice (win2_7.rect t)).set ↔ _
  rw [View.set_slice_whole, Rect.mem_set_unit]
  exact Iff.rfl

/-- Every row lies in the block of the point `row / 4000`: the fifty blocks tile the array. -/
theorem cover (i : S200000x1.Idx) :
    ∃ t : Fin cfg2.N, (cfg2.win 7).flush t = true ∧ i ∈ ((cfg2.win 7).blk t).view.set := by
  have hi0 : (i 0).val < 200000 := (i 0).isLt
  have hi1 : (i 1).val < 1 := (i 1).isLt
  have hN : cfg2.N = 50 := N_2
  let t : Fin cfg2.N := ⟨(i 0).val / 4000, by rw [hN]; omega⟩
  have htv : t.val = (i 0).val / 4000 := rfl
  obtain ⟨e00, e01, e10, e11, e20, e21, e30, e31, e40, e41, e50, e51, e60, e61, e70, e71⟩ := idx_facts t
  refine ⟨t, flush2_7 t, ?_⟩
  rw [mem_blk]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 1 ≤ (i 1).val ∧ (i 1).val < win2_7.index t (1 : Fin 2) * 1 + 1; omega

/-- THE OUTPUT ARRAY after the grid is `spec` of the arrays the grid found. -/
theorem value (c : Dev nD) : (dat2 V c).arrAt 7 cfg2.N = spec V c :=
  (dat2 V c).arrAt_eq_of_cover 7 (spec V c) (fun t _ => flushed V c t) (cover)

end Cert.KernelIdeal.Region2

end
-- ==== Proof.LibSageHost.lean ====
/-
  THE HOST'S SPELLING OF THE DENSE STEPS OF A TWO-LAYER BIPARTITE GRAPH NETWORK, AS WHOLE ARRAYS, ON THE EXTENDED REALS.

  The host writes a product of an [a, k] array and a [k, n] array as a dot_general, a bias row [1, n] laid over the
  rows as a broadcast_in_dim, and a scalar laid over a whole array as a broadcast_in_dim of a rank-0 constant.  In that
  spelling:
    • the ENCODER: ((A Wa + Ba) + (X Wb + Bb)) / 2 is the sum of the two biased products times one half ('enc_host'):
      2 is a real number other than zero, so dividing by it is multiplying by its reciprocal, at the infinities too;
    • the PRE-ACTIVATION of a layer: (A Wl + B) + X Wr ('pre_host');
    • a LAYER: H where H is at least zero and the slope times H elsewhere, H the pre-activation, is the leaky rectifier
      of the pre-activation with the threshold and the slope the two constants denote ('act_host');
    • the HEAD: Y Wo + Bo over the last layer's result Y ('head_host').
  Each is an equality of whole arrays with the entry-by-entry function of the same name; every statement is over the
  extents a, k, k', n, o as variables.
-/
import Idealize.ShloMosaic.Lib.Pipeline.Value
import Idealize.ShloMosaic.Lib.ValueIdx
import Idealize.ShloMosaic.Lib.IdealHost
import Idealize.ShloMosaic.PureOps.Ideal.Laws
import proofs.«114619_j71399536329138_2_alg».proof.Proof.LibDenseLayer
import proofs.«114619_j71399536329138_2_alg».proof.Proof.LibSage

noncomputable section

open scoped BigOperators

namespace Cert.SageHost

open Idealize.ShloMosaic Idealize.ShloMosaic.ValueIdx

variable {a k k' n o : ℕ}

/-- The f32 word 0x40000000 denotes the real number 2. -/
theorem ofBits_two : Ideal.ofBits .f32 0x40000000#32 = ((2 : ℝ) : EReal) := by
  simp [Ideal.ofBits, Ideal.ieee, -EReal.coe_mul]; norm_num

/-- The f32 word 0x3F000000 denotes the real number 1 / 2. -/
theorem ofBits_half : Ideal.ofBits .f32 0x3F000000#32 = ((1 / 2 : ℝ) : EReal) := by
  simp [Ideal.ofBits, Ideal.ieee, -EReal.coe_mul]; norm_num

section TwoProducts

variable (d1 : DotDims ⟨2, ![a, k]⟩ ⟨2, ![k, n]⟩ ⟨2, ![a, n]⟩)
  (hlc1 : d1.lhsContracting = [1]) (hrc1 : d1.rhsContracting = [0]) (hln1 : d1.lhsNonContracting = [0])
  (hrn1 : d1.rhsNonContracting = [1]) (hlb1 : d1.lhsBatch = []) (hrb1 : d1.rhsBatch = [])
  (d2 : DotDims ⟨2, ![a, k']⟩ ⟨2, ![k', n]⟩ ⟨2, ![a, n]⟩)
  (hlc2 : d2.lhsContracting = [1]) (hrc2 : d2.rhsContracting = [0]) (hln2 : d2.lhsNonContracting = [0])
  (hrn2 : d2.rhsNonContracting = [1]) (hlb2 : d2.lhsBatch = []) (hrb2 : d2.rhsBatch = [])

include hlc1 hrc1 hln1 hrn1 hlb1 hrb1 hlc2 hrc2 hln2 hrn2 hlb2 hrb2 in
/-- THE ENCODER: the sum of the two biased products divided by the constant 2 is that sum times the constant 1 / 2. -/
theorem enc_host (A : FVec Ideal ⟨2, ![a, k]⟩ .f32) (Wa : FVec Ideal ⟨2, ![k, n]⟩ .f32) (Ba : FVec Ideal ⟨2, ![1, n]⟩ .f32)
    (X : FVec Ideal ⟨2, ![a, k']⟩ .f32) (Wb : FVec Ideal ⟨2, ![k', n]⟩ .f32) (Bb : FVec Ideal ⟨2, ![1, n]⟩ .f32)
    (hBa : (⟨2, ![1, n]⟩ : Shape).BroadcastsInDim ⟨2, ![a, n]⟩ ![0, 1])
    (hBb : (⟨2, ![1, n]⟩ : Shape).BroadcastsInDim ⟨2, ![a, n]⟩ ![0, 1])
    (hs : (⟨0, ![]⟩ : Shape).BroadcastsInDim ⟨2, ![a, n]⟩ ![]) :
    Host.divf (F := Ideal)
        (addf (addf (Host.dotGeneral (F := Ideal) d1 none A Wa) (broadcastInDim ⟨2, ![a, n]⟩ ![0, 1] hBa Ba))
          (addf (Host.dotGeneral (F := Ideal) d2 none X Wb) (broadcastInDim ⟨2, ![a, n]⟩ ![0, 1] hBb Bb)))
        (broadcastInDim ⟨2, ![a, n]⟩ ![] hs (constant (F := Ideal) ⟨0, ![]⟩ .f32 0x40000000#32))
      = Cert.Sage.enc (Ideal.ofBits .f32 0x3F000000#32) A Wa Ba X Wb Bb := by
  funext j
  obtain ⟨r, q, rfl⟩ : ∃ (r : Fin a) (q : Fin n), j = ix2 r q := ⟨j 0, j 1, eq_ix2 j⟩
  rw [hostDivf_apply, broadcastInDim_scalar_apply, constant_apply, ofBits_two,
    Ideal.div_coe (by norm_num : (2 : ℝ) ≠ 0), ← ofBits_half, addf_apply, Cert.Dense.host_biased,
    Cert.Dense.host_biased, Cert.Dense.dotGeneral_eq_prod d1 hlc1 hrc1 hln1 hrn1 hlb1 hrb1,
    Cert.Dense.dotGeneral_eq_prod d2 hlc2 hrc2 hln2 hrn2 hlb2 hrb2]
  rfl

include hlc1 hrc1 hln1 hrn1 hlb1 hrb1 hlc2 hrc2 hln2 hrn2 hlb2 hrb2 in
/-- THE PRE-ACTIVATION: the biased product of the aggregated features plus the product of the block's own features. -/
theorem pre_host (A : FVec Ideal ⟨2, ![a, k]⟩ .f32) (Wl : FVec Ideal ⟨2, ![k, n]⟩ .f32) (B : FVec Ideal ⟨2, ![1, n]⟩ .f32)
    (X : FVec Ideal ⟨2, ![a, k']⟩ .f32) (Wr : FVec Ideal ⟨2, ![k', n]⟩ .f32)
    (hB : (⟨2, ![1, n]⟩ : Shape).BroadcastsInDim ⟨2, ![a, n]⟩ ![0, 1]) :
    addf (addf (Host.dotGeneral (F := Ideal) d1 none A Wl) (broadcastInDim ⟨2, ![a, n]⟩ ![0, 1] hB B))
        (Host.dotGeneral (F := Ideal) d2 none X Wr)
      = Cert.Sage.pre A Wl B X Wr := by
  funext j
  obtain ⟨r, q, rfl⟩ : ∃ (r : Fin a) (q : Fin n), j = ix2 r q := ⟨j 0, j 1, eq_ix2 j⟩
  rw [addf_apply, Cert.Dense.host_biased, Cert.Dense.dotGeneral_eq_prod d1 hlc1 hrc1 hln1 hrn1 hlb1 hrb1,
    Cert.Dense.dotGeneral_eq_prod d2 hlc2 hrc2 hln2 hrn2 hlb2 hrb2]
  rfl

include hlc1 hrc1 hln1 hrn1 hlb1 hrb1 hlc2 hrc2 hln2 hrn2 hlb2 hrb2 in
/-- A LAYER: the pre-activation H where it is at least the first constant, the second constant times H elsewhere, is
    the leaky rectifier of the pre-activation with that threshold and that slope. -/
theorem act_host (A : FVec Ideal ⟨2, ![a, k]⟩ .f32) (Wl : FVec Ideal ⟨2, ![k, n]⟩ .f32) (B : FVec Ideal ⟨2, ![1, n]⟩ .f32)
    (X : FVec Ideal ⟨2, ![a, k']⟩ .f32) (Wr : FVec Ideal ⟨2, ![k', n]⟩ .f32)
    (hB : (⟨2, ![1, n]⟩ : Shape).BroadcastsInDim ⟨2, ![a, n]⟩ ![0, 1])
    (hs hs' : (⟨0, ![]⟩ : Shape).BroadcastsInDim ⟨2, ![a, n]⟩ ![]) :
    select
        (cmpf .oge
          (addf (addf (Host.dotGeneral (F := Ideal) d1 none A Wl) (broadcastInDim ⟨2, ![a, n]⟩ ![0, 1] hB B))
            (Host.dotGeneral (F := Ideal) d2 none X Wr))
          (broadcastInDim ⟨2, ![a, n]⟩ ![] hs (constant (F := Ideal) ⟨0, ![]⟩ .f32 0x00000000#32)))
        (addf (addf (Host.dotGeneral (F := Ideal) d1 none A Wl) (broadcastInDim ⟨2, ![a, n]⟩ ![0, 1] hB B))
          (Host.dotGeneral (F := Ideal) d2 none X Wr))
        (mulf (broadcastInDim ⟨2, ![a, n]⟩ ![] hs' (constant (F := Ideal) ⟨0, ![]⟩ .f32 0x3DCCCCCD#32))
          (addf (addf (Host.dotGeneral (F := Ideal) d1 none A Wl) (broadcastInDim ⟨2, ![a, n]⟩ ![0, 1] hB B))
            (Host.dotGeneral (F := Ideal) d2 none X Wr)))
      = Cert.Sage.act (Ideal.ofBits .f32 0x00000000#32) (Ideal.ofBits .f32 0x3DCCCCCD#32) A Wl B X Wr := by
  funext j
  rw [pre_host d1 hlc1 hrc1 hln1 hrn1 hlb1 hrb1 d2 hlc2 hrc2 hln2 hrn2 hlb2 hrb2 A Wl B X Wr hB, select_apply,
    cmpf_apply, mulf_apply, broadcastInDim_scalar_apply, broadcastInDim_scalar_apply, constant_apply, constant_apply]
  rfl

end TwoProducts

section Head

variable (d3 : DotDims ⟨2, ![a, n]⟩ ⟨2, ![n, o]⟩ ⟨2, ![a, o]⟩)
  (hlc3 : d3.lhsContracting = [1]) (hrc3 : d3.rhsContracting = [0]) (hln3 : d3.lhsNonContracting = [0])
  (hrn3 : d3.rhsNonContracting = [1]) (hlb3 : d3.lhsBatch = []) (hrb3 : d3.rhsBatch = [])

include hlc3 hrc3 hln3 hrn3 hlb3 hrb3 in
/-- THE HEAD: the last layer's result times the head's weights plus the head's bias row. -/
theorem head_host (z t : EReal) (A : FVec Ideal ⟨2, ![a, k]⟩ .f32) (Wl : FVec Ideal ⟨2, ![k, n]⟩ .f32)
    (B : FVec Ideal ⟨2, ![1, n]⟩ .f32) (X : FVec Ideal ⟨2, ![a, k']⟩ .f32) (Wr : FVec Ideal ⟨2, ![k', n]⟩ .f32)
    (Y : FVec Ideal ⟨2, ![a, n]⟩ .f32) (hY : Y = Cert.Sage.act z t A Wl B X Wr)
    (Wo : FVec Ideal ⟨2, ![n, o]⟩ .f32) (Bo : FVec Ideal ⟨2, ![1, o]⟩ .f32)
    (hBo : (⟨2, ![1, o]⟩ : Shape).BroadcastsInDim ⟨2, ![a, o]⟩ ![0, 1]) :
    addf (Host.dotGeneral (F := Ideal) d3 none Y Wo) (broadcastInDim ⟨2, ![a, o]⟩ ![0, 1] hBo Bo)
      = Cert.Sage.head z t A Wl B X Wr Wo Bo := by
  subst hY
  exact (Cert.Dense.biased_eq_host d3 hlc3 hrc3 hln3 hrn3 hlb3 hrb3 (Cert.Sage.act z t A Wl B X Wr) Wo Bo hBo).symm

end Head

end Cert.SageHost

end
-- ==== Proof.RefSpec.lean ====
/-
  The reference's dense steps as the entry-by-entry functions.

  The reference spells each dense step with host operations: a dot_general, a bias vector laid out as a row and then
  over the rows, a comparison with zero selecting between x and a tenth of x, a division by two.  Its encoded features,
  its first-layer client features and its output column are the encoder, the layer and the layer with the linear head
  of LibSage, over the operands the reference feeds them: the bias rows and the two neighbour means.
-/
import proofs.«114619_j71399536329138_2_alg».proof.Proof.Gen.ReferenceIdeal.Read
import proofs.«114619_j71399536329138_2_alg».proof.Proof.LibSageHost
import proofs.«114619_j71399536329138_2_alg».proof.Proof.LibSage

set_option maxRecDepth 16384

noncomputable section

namespace Cert.ReferenceIdeal.Spec

open Cert.ReferenceIdeal Cert.ReferenceIdeal.Read
open Idealize.ShloMosaic Idealize.ShloMosaic.ValueIdx

/-- The reference's encoded features: half the sum of the two biased products. -/
theorem clients_eq (x0 : FVec Ideal S200000x1024 .f32) (x1 : FVec Ideal S200000x256 .f32) (x7 : FVec Ideal S1024x128 .f32)
    (x8 : FVec Ideal S128 .f32) (x9 : FVec Ideal S256x128 .f32) (x10 : FVec Ideal S128 .f32) :
    val_main_v10 (F := Ideal) x0 x1 x7 x8 x9 x10
      = Cert.Sage.enc (Ideal.ofBits .f32 0x3F000000#32) x0 x7 (val_main_v1 (F := Ideal) x8) x1 x9 (val_main_v5 (F := Ideal) x10) := by
  unfold val_main_v10 val_main_v8 val_main_v9 val_main_v3 val_main_v7 val_main_v0 val_main_v2 val_main_v4 val_main_v6 val_main_cst
  exact Cert.SageHost.enc_host dot_S200000x1024_S1024x128_S200000x128_1_0_0_1_n_n rfl rfl rfl rfl rfl rfl
    dot_S200000x256_S256x128_S200000x128_1_0_0_1_n_n rfl rfl rfl rfl rfl rfl x0 x7 _ x1 x9 _ _ _ _

/-- The reference's first-layer client features: the layer over the first neighbour mean and the encoded features. -/
theorem cli1_eq (x0 : FVec Ideal S200000x1024 .f32) (x1 : FVec Ideal S200000x256 .f32) (x2 : FVec Ideal S1000x64 .f32)
    (x5 x6 : IVec S1000000 32) (x7 : FVec Ideal S1024x128 .f32) (x8 : FVec Ideal S128 .f32) (x9 : FVec Ideal S256x128 .f32)
    (x10 : FVec Ideal S128 .f32) (x14 : FVec Ideal S64x128 .f32) (x15 : FVec Ideal S128 .f32) (x16 : FVec Ideal S128x128 .f32) :
    val_main_v68 (F := Ideal) x0 x1 x2 x5 x6 x7 x8 x9 x10 x14 x15 x16
      = Cert.Sage.act (Ideal.ofBits .f32 0x00000000#32) (Ideal.ofBits .f32 0x3DCCCCCD#32) (val_main_v57 (F := Ideal) x2 x5 x6) x14
          (val_main_v59 (F := Ideal) x15) (val_main_v10 (F := Ideal) x0 x1 x7 x8 x9 x10) x16 := by
  unfold val_main_v68 val_main_v65 val_main_v67 val_main_v63 val_main_v61 val_main_v62 val_main_v58 val_main_v60 val_main_v64 val_main_v66
    val_main_cst_13 val_main_cst_14
  exact Cert.SageHost.act_host dot_S200000x64_S64x128_S200000x128_1_0_0_1_n_n rfl rfl rfl rfl rfl rfl
    dot_S200000x128_S128x128_S200000x128_1_0_0_1_n_n rfl rfl rfl rfl rfl rfl _ x14 _ _ x16 _ _ _

/-- The reference's second-layer client features. -/
theorem cli2_eq (x0 : FVec Ideal S200000x1024 .f32) (x1 : FVec Ideal S200000x256 .f32) (x2 : FVec Ideal S1000x64 .f32)
    (x3 x4 x5 x6 : IVec S1000000 32) (x7 : FVec Ideal S1024x128 .f32) (x8 : FVec Ideal S128 .f32) (x9 : FVec Ideal S256x128 .f32)
    (x10 : FVec Ideal S128 .f32) (x11 : FVec Ideal S128x128 .f32) (x12 : FVec Ideal S128 .f32) (x13 x14 : FVec Ideal S64x128 .f32)
    (x15 : FVec Ideal S128 .f32) (x16 x20 : FVec Ideal S128x128 .f32) (x21 : FVec Ideal S128 .f32) (x22 : FVec Ideal S128x128 .f32) :
    val_main_v126 (F := Ideal) x0 x1 x2 x3 x4 x5 x6 x7 x8 x9 x10 x11 x12 x13 x14 x15 x16 x20 x21 x22
      = Cert.Sage.act (Ideal.ofBits .f32 0x00000000#32) (Ideal.ofBits .f32 0x3DCCCCCD#32)
          (val_main_v115 (F := Ideal) x0 x1 x2 x3 x4 x5 x6 x7 x8 x9 x10 x11 x12 x13) x20 (val_main_v117 (F := Ideal) x21)
          (val_main_v68 (F := Ideal) x0 x1 x2 x5 x6 x7 x8 x9 x10 x14 x15 x16) x22 := by
  unfold val_main_v126 val_main_v123 val_main_v125 val_main_v121 val_main_v119 val_main_v120 val_main_v116 val_main_v118 val_main_v122 val_main_v124
    val_main_cst_29 val_main_cst_30
  exact Cert.SageHost.act_host dot_S200000x128_S128x128_S200000x128_1_0_0_1_n_n rfl rfl rfl rfl rfl rfl
    dot_S200000x128_S128x128_S200000x128_1_0_0_1_n_n rfl rfl rfl rfl rfl rfl _ x20 _ _ x22 _ _ _

/-- The reference's output column: the second layer followed by the linear head. -/
theorem out_eq (x0 : FVec Ideal S200000x1024 .f32) (x1 : FVec Ideal S200000x256 .f32) (x2 : FVec Ideal S1000x64 .f32)
    (x3 x4 x5 x6 : IVec S1000000 32) (x7 : FVec Ideal S1024x128 .f32) (x8 : FVec Ideal S128 .f32) (x9 : FVec Ideal S256x128 .f32)
    (x10 : FVec Ideal S128 .f32) (x11 : FVec Ideal S128x128 .f32) (x12 : FVec Ideal S128 .f32) (x13 x14 : FVec Ideal S64x128 .f32)
    (x15 : FVec Ideal S128 .f32) (x16 x20 : FVec Ideal S128x128 .f32) (x21 : FVec Ideal S128 .f32) (x22 : FVec Ideal S128x128 .f32)
    (x23 : FVec Ideal S128x1 .f32) (x24 : FVec Ideal S1 .f32) :
    val_main_v130 (F := Ideal) x0 x1 x2 x3 x4 x5 x6 x7 x8 x9 x10 x11 x12 x13 x14 x15 x16 x20 x21 x22 x23 x24
      = Cert.Sage.head (Ideal.ofBits .f32 0x00000000#32) (Ideal.ofBits .f32 0x3DCCCCCD#32)
          (val_main_v115 (F := Ideal) x0 x1 x2 x3 x4 x5 x6 x7 x8 x9 x10 x11 x12 x13) x20 (val_main_v117 (F := Ideal) x21)
          (val_main_v68 (F := Ideal) x0 x1 x2 x5 x6 x7 x8 x9 x10 x14 x15 x16) x22 x23 (val_main_v128 (F := Ideal) x24) := by
  unfold val_main_v130 val_main_v127 val_main_v129
  exact Cert.SageHost.head_host dot_S200000x128_S128x1_S200000x1_1_0_0_1_n_n rfl rfl rfl rfl rfl rfl _ _ _ x20 _ _ x22 _
    (cli2_eq x0 x1 x2 x3 x4 x5 x6 x7 x8 x9 x10 x11 x12 x13 x14 x15 x16 x20 x21 x22) x23 _ _

end Cert.ReferenceIdeal.Spec

end
-- ==== Proof.KernelValue.lean ====
/-
  The idealized kernel program's result as the reference's function of the argument arrays.

  Boundary by boundary: the encoder's grid leaves the encoded features; the long host stretch turns them into the two
  neighbour means and the first layer's bias row; the first dense grid leaves the first layer's output; the last grid
  leaves the output column; the final reshape makes it a vector.  At each step the grid's value (a dense layer on whole
  arrays) or the stretch's value (the same host operations as the reference) is the reference's value of the same
  quantity, the inputs being the values already identified and argument arrays nothing has written.
-/
import proofs.«114619_j71399536329138_2_alg».proof.Proof.KernelWalk
import proofs.«114619_j71399536329138_2_alg».proof.Proof.KernelHost
import proofs.«114619_j71399536329138_2_alg».proof.Proof.Region0Value
import proofs.«114619_j71399536329138_2_alg».proof.Proof.Region1Value
import proofs.«114619_j71399536329138_2_alg».proof.Proof.Region2Value
import proofs.«114619_j71399536329138_2_alg».proof.Proof.RefSpec

set_option maxRecDepth 16384

noncomputable section

namespace Cert.KernelIdeal.Value

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-- After the encoder's grid its output array holds the reference's encoded features. -/
theorem clients : W2 m ρ c (Proc.devRef .tc main_call0_v2) = Cert.ReferenceIdeal.Read.val_main_v10 (F := Ideal) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) := by
  refine (W2_arr m ρ c 6).trans ?_
  rw [Cert.KernelIdeal.Region0.value (V1 m ρ) c]
  have e0 : V1 m ρ c main_arg0 = (m ((c : Thread nD τ).loc main_arg0)) := Cert.KernelIdeal.Walk.W1_arg0 m ρ c
  have e1 : V1 m ρ c main_arg1 = (m ((c : Thread nD τ).loc main_arg1)) := Cert.KernelIdeal.Walk.W1_arg1 m ρ c
  have e7 : V1 m ρ c main_arg7 = (m ((c : Thread nD τ).loc main_arg7)) := Cert.KernelIdeal.Walk.W1_arg7 m ρ c
  have e9 : V1 m ρ c main_arg9 = (m ((c : Thread nD τ).loc main_arg9)) := Cert.KernelIdeal.Walk.W1_arg9 m ρ c
  have ev0 : V1 m ρ c main_call0_v0 = Cert.ReferenceIdeal.Read.val_main_v1 (F := Ideal) (m ((c : Thread nD τ).loc main_arg8)) := Cert.KernelIdeal.Host.s0_v0 (W0 m ρ c)
  have ev1 : V1 m ρ c main_call0_v1 = Cert.ReferenceIdeal.Read.val_main_v5 (F := Ideal) (m ((c : Thread nD τ).loc main_arg10)) := Cert.KernelIdeal.Host.s0_v1 (W0 m ρ c)
  show Cert.Sage.enc _ (V1 m ρ c main_arg0) (V1 m ρ c main_arg7) (V1 m ρ c main_call0_v0) (V1 m ρ c main_arg1) (V1 m ρ c main_arg9) (V1 m ρ c main_call0_v1) = _
  rw [e0, e1, e7, e9, ev0, ev1]
  exact (Cert.ReferenceIdeal.Spec.clients_eq _ _ _ _ _ _).symm

/-- The encoded features as the long stretch finds them, over that boundary's argument buffers. -/
theorem clients_W2 : W2 m ρ c (Proc.devRef .tc main_call0_v2)
    = Cert.ReferenceIdeal.Read.val_main_v10 (F := Ideal) (W2 m ρ c (Proc.devRef .tc main_arg0)) (W2 m ρ c (Proc.devRef .tc main_arg1)) (W2 m ρ c (Proc.devRef .tc main_arg7)) (W2 m ρ c (Proc.devRef .tc main_arg8)) (W2 m ρ c (Proc.devRef .tc main_arg9)) (W2 m ρ c (Proc.devRef .tc main_arg10)) := by
  rw [Cert.KernelIdeal.Walk.W2_arg0 m ρ c, Cert.KernelIdeal.Walk.W2_arg1 m ρ c, Cert.KernelIdeal.Walk.W2_arg7 m ρ c, Cert.KernelIdeal.Walk.W2_arg8 m ρ c, Cert.KernelIdeal.Walk.W2_arg9 m ρ c, Cert.KernelIdeal.Walk.W2_arg10 m ρ c]
  exact clients m ρ c

/-- After the first dense grid its output array holds the reference's first-layer client features. -/
theorem cli1 : W4 m ρ c (Proc.devRef .tc main_call0_v54) = Cert.ReferenceIdeal.Read.val_main_v68 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) := by
  refine (W4_arr m ρ c 5).trans ?_
  rw [Cert.KernelIdeal.Region1.value (V3 m ρ) c]
  have e51 : V3 m ρ c main_call0_v51 = Cert.ReferenceIdeal.Read.val_main_v57 (F := Ideal) (m ((c : Thread nD τ).loc main_arg2)) (m ((c : Thread nD τ).loc main_arg5)) (m ((c : Thread nD τ).loc main_arg6)) :=
    (Cert.KernelIdeal.Host.s1_v51 (W2 m ρ c)).trans (by rw [Cert.KernelIdeal.Walk.W2_arg2 m ρ c, Cert.KernelIdeal.Walk.W2_arg5 m ρ c, Cert.KernelIdeal.Walk.W2_arg6 m ρ c])
  have e2 : V3 m ρ c main_call0_v2 = Cert.ReferenceIdeal.Read.val_main_v10 (F := Ideal) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) :=
    (Cert.KernelIdeal.Walk.W3_call0_v2 m ρ c).trans (clients m ρ c)
  have e14 : V3 m ρ c main_arg14 = (m ((c : Thread nD τ).loc main_arg14)) := Cert.KernelIdeal.Walk.W3_arg14 m ρ c
  have e16 : V3 m ρ c main_arg16 = (m ((c : Thread nD τ).loc main_arg16)) := Cert.KernelIdeal.Walk.W3_arg16 m ρ c
  have e53 : V3 m ρ c main_call0_v53 = Cert.ReferenceIdeal.Read.val_main_v59 (F := Ideal) (m ((c : Thread nD τ).loc main_arg15)) :=
    (Cert.KernelIdeal.Host.s1_v53 (W2 m ρ c)).trans (by rw [Cert.KernelIdeal.Walk.W2_arg15 m ρ c])
  show Cert.Sage.act _ _ (V3 m ρ c main_call0_v51) (V3 m ρ c main_arg14) (V3 m ρ c main_call0_v53) (V3 m ρ c main_call0_v2) (V3 m ρ c main_arg16) = _
  rw [e51, e14, e53, e2, e16]
  exact (Cert.ReferenceIdeal.Spec.cli1_eq _ _ _ _ _ _ _ _ _ _ _ _).symm

/-- The second neighbour mean, as the last grid finds it. -/
theorem agg2 : V5 m ρ c main_call0_v52 = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (Cert.KernelIdeal.Walk.W5_call0_v52 m ρ c).trans
    ((Cert.KernelIdeal.Host.s1_v52 (W2 m ρ c) (clients_W2 m ρ c)).trans (by rw [Cert.KernelIdeal.Walk.W2_arg0 m ρ c, Cert.KernelIdeal.Walk.W2_arg1 m ρ c, Cert.KernelIdeal.Walk.W2_arg2 m ρ c, Cert.KernelIdeal.Walk.W2_arg3 m ρ c, Cert.KernelIdeal.Walk.W2_arg4 m ρ c, Cert.KernelIdeal.Walk.W2_arg5 m ρ c, Cert.KernelIdeal.Walk.W2_arg6 m ρ c, Cert.KernelIdeal.Walk.W2_arg7 m ρ c, Cert.KernelIdeal.Walk.W2_arg8 m ρ c, Cert.KernelIdeal.Walk.W2_arg9 m ρ c, Cert.KernelIdeal.Walk.W2_arg10 m ρ c, Cert.KernelIdeal.Walk.W2_arg11 m ρ c, Cert.KernelIdeal.Walk.W2_arg12 m ρ c, Cert.KernelIdeal.Walk.W2_arg13 m ρ c]))

/-- After the last grid its output column holds the reference's output column. -/
theorem out : W6 m ρ c (Proc.devRef .tc main_call0_v57) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W6_arr m ρ c 7).trans ?_
  rw [Cert.KernelIdeal.Region2.value (V5 m ρ) c]
  have e52 := agg2 m ρ c
  have e54 : V5 m ρ c main_call0_v54 = Cert.ReferenceIdeal.Read.val_main_v68 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) :=
    (Cert.KernelIdeal.Walk.W5_call0_v54 m ρ c).trans (cli1 m ρ c)
  have e20 : V5 m ρ c main_arg20 = (m ((c : Thread nD τ).loc main_arg20)) := Cert.KernelIdeal.Walk.W5_arg20 m ρ c
  have e22 : V5 m ρ c main_arg22 = (m ((c : Thread nD τ).loc main_arg22)) := Cert.KernelIdeal.Walk.W5_arg22 m ρ c
  have e23 : V5 m ρ c main_arg23 = (m ((c : Thread nD τ).loc main_arg23)) := Cert.KernelIdeal.Walk.W5_arg23 m ρ c
  have e55 : V5 m ρ c main_call0_v55 = Cert.ReferenceIdeal.Read.val_main_v117 (F := Ideal) (m ((c : Thread nD τ).loc main_arg21)) :=
    (Cert.KernelIdeal.Host.s2_v55 (W4 m ρ c)).trans (by rw [Cert.KernelIdeal.Walk.W4_arg21 m ρ c])
  have e56 : V5 m ρ c main_call0_v56 = Cert.ReferenceIdeal.Read.val_main_v128 (F := Ideal) (m ((c : Thread nD τ).loc main_arg24)) :=
    (Cert.KernelIdeal.Host.s2_v56 (W4 m ρ c)).trans (by rw [Cert.KernelIdeal.Walk.W4_arg24 m ρ c])
  show Cert.Sage.head _ _ (V5 m ρ c main_call0_v52) (V5 m ρ c main_arg20) (V5 m ρ c main_call0_v55) (V5 m ρ c main_call0_v54) (V5 m ρ c main_arg22) (V5 m ρ c main_arg23) (V5 m ρ c main_call0_v56) = _
  rw [e52, e20, e55, e54, e22, e23, e56]
  exact (Cert.ReferenceIdeal.Spec.out_eq _ _ _ _ _ _ _ _ _ _ _ _ _ _ _ _ _ _ _ _ _ _).symm

/-- THE RESULT: at the last boundary the result vector holds the reference's result, as a function of the argument
    arrays. -/
theorem result : W7 m ρ c (Proc.devRef .tc main_v0) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg20)) (m ((c : Thread nD τ).loc main_arg21)) (m ((c : Thread nD τ).loc main_arg22)) (m ((c : Thread nD τ).loc main_arg23)) (m ((c : Thread nD τ).loc main_arg24)) :=
  (Cert.KernelIdeal.Host.s3_v0 (W6 m ρ c)).trans (by rw [out m ρ c]; rfl)

end Cert.KernelIdeal.Value

end
-- ==== Proof.lean ====
/-
  The certificate of a two-layer bipartite graph network: a kernel program of three row-blocked grids (the feature
  encoder, the first client layer, the last client layer fused with the linear head) and host operations between
  them, against a reference written with host operations only.

  The frames of the two kernel programs are the generated ones; the reference's frame is its generated run with the
  result dropped; the idealization rewrote nothing.  The value claim: on the extended reals both programs end with the
  same vector.  The kernel program's result is read boundary by boundary (a grid of fifty row blocks is the dense layer
  on the whole arrays because a layer acts row by row; the host stretches are the reference's own operations, except
  that two neighbour means over one edge list are taken jointly over the two tables side by side and cut apart again,
  which changes nothing column by column; one half times x is x divided by two), and the reference's result is its
  generated composed term.  No finiteness is needed: only associativity-free identities of single operations are used.
-/
import proofs.«114619_j71399536329138_2_alg».proof.Defs
import proofs.«114619_j71399536329138_2_alg».proof.Proof.Gen.Kernel
import proofs.«114619_j71399536329138_2_alg».proof.Proof.Gen.Kernel.Skeleton
import proofs.«114619_j71399536329138_2_alg».proof.Proof.Gen.Kernel.Launch
import proofs.«114619_j71399536329138_2_alg».proof.Proof.Gen.Kernel.Points
import proofs.«114619_j71399536329138_2_alg».proof.Proof.Gen.Kernel.Frame
import proofs.«114619_j71399536329138_2_alg».proof.Proof.Gen.KernelIdeal
import proofs.«114619_j71399536329138_2_alg».proof.Proof.Gen.KernelIdeal.Skeleton
import proofs.«114619_j71399536329138_2_alg».proof.Proof.Gen.KernelIdeal.Launch
import proofs.«114619_j71399536329138_2_alg».proof.Proof.Gen.KernelIdeal.Points
import proofs.«114619_j71399536329138_2_alg».proof.Proof.Gen.KernelIdeal.Frame
import proofs.«114619_j71399536329138_2_alg».proof.Proof.Gen.ReferenceIdeal
import proofs.«114619_j71399536329138_2_alg».proof.Proof.Gen.Pre_finite_inputs
import proofs.«114619_j71399536329138_2_alg».proof.Proof.Gen.ReferenceIdeal.Run
import proofs.«114619_j71399536329138_2_alg».proof.Proof.Gen.ReferenceIdeal.Read
import proofs.«114619_j71399536329138_2_alg».proof.Proof.KernelRun
import proofs.«114619_j71399536329138_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the kernel program ends with the reference's result: the kernel's run read at the result
    vector and the argument arrays, the reference's generated run, and the two results one function of arguments that
    agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 m ρ c (Proc.devRef .tc Cert.KernelIdeal.main_v0), ?_, ?_⟩
  · exact (θ_run Cert.KernelIdeal.defs _ _).mono (fun r h c =>
      ⟨h c _ Cert.KernelIdeal.Run.result_mem,
       (h c _ (Cert.KernelIdeal.Gen.mem_uc Cert.KernelIdeal.main_arg0 (by decide))).trans (Cert.KernelIdeal.Gen.W7_main_arg0 m ρ c),
       (h c _ (Cert.KernelIdeal.Gen.mem_uc Cert.KernelIdeal.main_arg1 (by decide))).trans (Cert.KernelIdeal.Gen.W7_main_arg1 m ρ c),
       (h c _ (Cert.KernelIdeal.Gen.mem_uc Cert.KernelIdeal.main_arg2 (by decide))).trans (Cert.KernelIdeal.Gen.W7_main_arg2 m ρ c),
       (h c _ (Cert.KernelIdeal.Gen.mem_uc Cert.KernelIdeal.main_arg3 (by decide))).trans (Cert.KernelIdeal.Gen.W7_main_arg3 m ρ c),
       (h c _ (Cert.KernelIdeal.Gen.mem_uc Cert.KernelIdeal.main_arg4 (by decide))).trans (Cert.KernelIdeal.Gen.W7_main_arg4 m ρ c),
       (h c _ (Cert.KernelIdeal.Gen.mem_uc Cert.KernelIdeal.main_arg5 (by decide))).trans (Cert.KernelIdeal.Gen.W7_main_arg5 m ρ c),
       (h c _ (Cert.KernelIdeal.Gen.mem_uc Cert.KernelIdeal.main_arg6 (by decide))).trans (Cert.KernelIdeal.Gen.W7_main_arg6 m ρ c),
       (h c _ (Cert.KernelIdeal.Gen.mem_uc Cert.KernelIdeal.main_arg7 (by decide))).trans (Cert.KernelIdeal.Gen.W7_main_arg7 m ρ c),
       (h c _ (Cert.KernelIdeal.Gen.mem_uc Cert.KernelIdeal.main_arg8 (by decide))).trans (Cert.KernelIdeal.Gen.W7_main_arg8 m ρ c),
       (h c _ (Cert.KernelIdeal.Gen.mem_uc Cert.KernelIdeal.main_arg9 (by decide))).trans (Cert.KernelIdeal.Gen.W7_main_arg9 m ρ c),
       (h c _ (Cert.KernelIdeal.Gen.mem_uc Cert.KernelIdeal.main_arg10 (by decide))).trans (Cert.KernelIdeal.Gen.W7_main_arg10 m ρ c),
       (h c _ (Cert.KernelIdeal.Gen.mem_uc Cert.KernelIdeal.main_arg11 (by decide))).trans (Cert.KernelIdeal.Gen.W7_main_arg11 m ρ c),
       (h c _ (Cert.KernelIdeal.Gen.mem_uc Cert.KernelIdeal.main_arg12 (by decide))).trans (Cert.KernelIdeal.Gen.W7_main_arg12 m ρ c),
       (h c _ (Cert.KernelIdeal.Gen.mem_uc Cert.KernelIdeal.main_arg13 (by decide))).trans (Cert.KernelIdeal.Gen.W7_main_arg13 m ρ c),
       (h c _ (Cert.KernelIdeal.Gen.mem_uc Cert.KernelIdeal.main_arg14 (by decide))).trans (Cert.KernelIdeal.Gen.W7_main_arg14 m ρ c),
       (h c _ (Cert.KernelIdeal.Gen.mem_uc Cert.KernelIdeal.main_arg15 (by decide))).trans (Cert.KernelIdeal.Gen.W7_main_arg15 m ρ c),
       (h c _ (Cert.KernelIdeal.Gen.mem_uc Cert.KernelIdeal.main_arg16 (by decide))).trans (Cert.KernelIdeal.Gen.W7_main_arg16 m ρ c),
       (h c _ (Cert.KernelIdeal.Gen.mem_uc Cert.KernelIdeal.main_arg17 (by decide))).trans (Cert.KernelIdeal.Gen.W7_main_arg17 m ρ c),
       (h c _ (Cert.KernelIdeal.Gen.mem_uc Cert.KernelIdeal.main_arg18 (by decide))).trans (Cert.KernelIdeal.Gen.W7_main_arg18 m ρ c),
       (h c _ (Cert.KernelIdeal.Gen.mem_uc Cert.KernelIdeal.main_arg19 (by decide))).trans (Cert.KernelIdeal.Gen.W7_main_arg19 m ρ c),
       (h c _ (Cert.KernelIdeal.Gen.mem_uc Cert.KernelIdeal.main_arg20 (by decide))).trans (Cert.KernelIdeal.Gen.W7_main_arg20 m ρ c),
       (h c _ (Cert.KernelIdeal.Gen.mem_uc Cert.KernelIdeal.main_arg21 (by decide))).trans (Cert.KernelIdeal.Gen.W7_main_arg21 m ρ c),
       (h c _ (Cert.KernelIdeal.Gen.mem_uc Cert.KernelIdeal.main_arg22 (by decide))).trans (Cert.KernelIdeal.Gen.W7_main_arg22 m ρ c),
       (h c _ (Cert.KernelIdeal.Gen.mem_uc Cert.KernelIdeal.main_arg23 (by decide))).trans (Cert.KernelIdeal.Gen.W7_main_arg23 m ρ c),
       (h c _ (Cert.KernelIdeal.Gen.mem_uc Cert.KernelIdeal.main_arg24 (by decide))).trans (Cert.KernelIdeal.Gen.W7_main_arg24 m ρ c)⟩)
      (Cert.KernelIdeal.Run.run_all m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24⟩ := hagree c
    rw [Cert.ReferenceIdeal.Read.val_main_v131_eq, h0, h1, h2, h3, h4, h5, h6, h7, h8, h9, h10, h11, h12, h13, h14, h15, h16, h20, h21, h22, h23, h24]
    exact (Cert.KernelIdeal.Value.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
